-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩

abbrev nBuf : Space → Nat
  | .hbm => 23
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x1, .i32⟩
  | .hbm, ⟨13, _⟩ => ⟨S1x8192, .i32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_33 : BitVec 32 := 0#32
  let v70 : BitVec 1 := Scalar.cmpi .ne v69 c0_i32_33
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  reducesTo_S8192x1_S_d0_1 : S8192x1.ReducesTo [0, 1] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .i1⟩
  | .hbm, ⟨44, _⟩ => ⟨S8192, .i1⟩
  | .hbm, ⟨45, _⟩ => ⟨S_, .i1⟩
  | .hbm, ⟨46, _⟩ => ⟨S8192, .i1⟩
  | .hbm, ⟨47, _⟩ => ⟨S8192, .i1⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_call2_cst : Ref sig .tc := ⟨.hbm, 52, rfl⟩
abbrev main_call2_v0 : Ref sig .tc := ⟨.hbm, 53, rfl⟩
abbrev main_v35 : Ref sig .tc := ⟨.hbm, 54, rfl⟩
abbrev main_cst_9 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  natLt_1_32 : 1 < 32
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Runs.lean ====
import proofs.«142534_j8615704396051_1_alg».proof.Proof.Gen.Kernel.Launch
import proofs.«142534_j8615704396051_1_alg».proof.Proof.Gen.Kernel.Skeleton
import proofs.«142534_j8615704396051_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents of core `c` when the region is entered: the launch contents after the host lines before it
    (the row normalisation and the two reshapes of the labels). -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, from the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before
    (the block index has not moved), whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- The first branch (clear the four running rows) is taken at the first column tile of each row tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch (write the two result blocks) is taken at the last column tile of each row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev scM0_2 : Memref sig .tc .vmem S1024x1 .f32 := Memref.whole cc0_scratch2
abbrev VS0_2 : View sig .tc .vmem S1024x1 .f32 := scM0_2.view
abbrev scM0_3 : Memref sig .tc .vmem S1024x1 .f32 := Memref.whole cc0_scratch3
abbrev VS0_3 : View sig .tc .vmem S1024x1 .f32 := scM0_3.view

/-- The region's invariant as it is handed over: the four running rows owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
import proofs.«142534_j8615704396051_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first column tile of a row tile: the four running rows are cleared, then updated. On whole staging buffers — the four inputs' at
    their blocks, the two results' at whatever they hold (the case does not touch them), the four running rows at anything — it runs to its end holding the inputs'
    buffers as they were and every buffer it stores into with its stores written, as pieces (last first); the pieces are
    what running the body finds. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.K.RunB.lean ====
import proofs.«142534_j8615704396051_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle column tile: the four running rows are updated. On whole staging buffers — the four inputs' at
    their blocks, the two results' at whatever they hold (the case does not touch them), the four running rows at what the point before left in them — it runs to its end holding the inputs'
    buffers as they were and every buffer it stores into with its stores written, as pieces (last first); the pieces are
    what running the body finds. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.K.RunC.lean ====
import proofs.«142534_j8615704396051_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last column tile of a row tile: the running rows are updated and the two result blocks written. On whole staging buffers — the four inputs' at
    their blocks, the two results' at anything, the four running rows at what the point before left in them — it runs to its end holding the inputs'
    buffers as they were and every buffer it stores into with its stores written, as pieces (last first); the pieces are
    what running the body finds. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Hand

end
-- ==== Proof.K.Frame.lean ====
import proofs.«142534_j8615704396051_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case leaves in result block 4's staging buffer: its stores read back (none: the block is not touched at such a point, and this value is never consulted). -/
def out0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What the case leaves in result block 5's staging buffer: its stores read back (none: the block is not touched at such a point, and this value is never consulted). -/
def out0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- The case's stores into running row 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S1024x1.size (by sl_kernel_rfl) y

/-- What the case leaves in running row 0: its stores read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- The case's stores into running row 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What the case leaves in running row 1: its stores read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- The case's stores into running row 2 cover it. -/
theorem scover0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What the case leaves in running row 2: its stores read back. -/
def sout0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- The case's stores into running row 3 cover it. -/
theorem scover0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What the case leaves in running row 3: its stores read back. -/
def sout0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What the case leaves in result block 4's staging buffer: its stores read back (none: the block is not touched at such a point, and this value is never consulted). -/
def out0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What the case leaves in result block 5's staging buffer: its stores read back (none: the block is not touched at such a point, and this value is never consulted). -/
def out0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- The case's stores into running row 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the case leaves in running row 0: its stores read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- The case's stores into running row 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S1024x1.size (by sl_kernel_rfl) y

/-- What the case leaves in running row 1: its stores read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- The case's stores into running row 2 cover it. -/
theorem scover0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S1024x1.size (by sl_kernel_rfl) y

/-- What the case leaves in running row 2: its stores read back. -/
def sout0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- The case's stores into running row 3 cover it. -/
theorem scover0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S1024x1.size (by sl_kernel_rfl) y

/-- What the case leaves in running row 3: its stores read back. -/
def sout0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- The last column tile's stores into result block 4 cover it (one store of the whole block). -/
theorem cover0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What the case leaves in result block 4's staging buffer: its stores read back. -/
def out0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- The last column tile's stores into result block 5 cover it (one store of the whole block). -/
theorem cover0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the case leaves in result block 5's staging buffer: its stores read back. -/
def out0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- The case's stores into running row 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the case leaves in running row 0: its stores read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- The case's stores into running row 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S1024x1.size (by sl_kernel_rfl) y

/-- What the case leaves in running row 1: its stores read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- The case's stores into running row 2 cover it. -/
theorem scover0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S1024x1.size (by sl_kernel_rfl) y

/-- What the case leaves in running row 2: its stores read back. -/
def sout0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- The case's stores into running row 3 cover it. -/
theorem scover0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S1024x1.size (by sl_kernel_rfl) y

/-- What the case leaves in running row 3: its stores read back. -/
def sout0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-! ## What the buffers hold after each point -/

/-- The accumulation: what the two result blocks' staging buffers and the four running rows hold after the body at
    grid position `n` — the case the position is in (first, middle or last column tile of its row tile), run on the
    point's input blocks and, but at a first column tile, on the running rows as position `n - 1` left them. -/
def outsAt0 (c : Dev nD) : (n : ℕ) → n < cfg0.N → Vec F S1024x1 .f32 × Vec F S1024x1 .f32 × Vec F S1024x1 .f32 × Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- At a first column tile. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle column tile. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the running rows at anything; afterwards each
    running row at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The arrays as the region finds them; after the body at point `t` each input's buffer at its block and the two
    results' at the accumulation's components; the invariant above; nothing owed. The normalised matrix is handed to
    the kernel twice (row tiles and column tiles): each of the two windows on it holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point. The inputs' buffers hold their blocks; the position's remainder modulo 16 says which of the
    three cases it is in, and that case's run applies: the invariant hands over the running rows at what the point
    before left (at anything at the very first point) and takes them back at this point's contents; a result block's
    buffer is handed back untouched except at a last column tile, where it holds the case's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1 sout0_A_2 sout0_A_3; (try dsimp only)
      by_cases hz : t.val = 0
      ·
        rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1 sout0_C_2 sout0_C_3; (try dsimp only)
      by_cases hz : t.val = 0
      · exfalso; omega
      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1 sout0_B_2 sout0_B_3; (try dsimp only)
      by_cases hz : t.val = 0
      · exfalso; omega
      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the running rows back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.K.Launch.lean ====
import proofs.«142534_j8615704396051_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows: one of them is handed to the kernel twice

The row-normalised matrix is the array of both window 0 (row tiles) and window 1 (column tiles). The launch deals each
distinct array once, whole; the pipeline holds one points-to per window, so the matrix's is split in its two halves on
the way in and joined again on the way out. -/

/-- The distinct arrays behind the six windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) := by
  unfold Pipeline.arrBufs
  exact bigSep_eq_bigSepL_of_eq [main_v7, main_v8, main_v9, main_v10_0, main_v10_1] (by decide) (by decide) _

/-- The pipeline's arrays, window by window, each at its share. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2) ∗ (((c : Thread nD τ).loc main_v9) ↦{fullShare} Fa 3)
          ∗ (((c : Thread nD τ).loc main_v10_0) ↦{fullShare} Fa 4) ∗ (((c : Thread nD τ).loc main_v10_1) ↦{fullShare} Fa 5)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ]
  rfl

/-- The distinct arrays at contents `W` are the pipeline's arrays at the same contents, window by window: the
    matrix's points-to splits along its share into the two windows' halves, and joins back. -/
theorem arrays0_iff (c : Dev nD) (W : (b : Ref sig .tc) → Buf (Elt F) ((c : Thread nD τ).loc b))
    (Fa : (w : Fin cfg0.W) → Buf (Elt F) ((cfg0.win w).arr.view.loc (c : Thread nD τ)))
    (hF : ∀ w, Fa w = W (Pipeline.arrRef spec0 w)) :
    (Pipeline.arrBufs (Ix := Unit) (Name := ℕ) (U := UR sig nD τ) (Lvl := ℕ) spec0 c W : sProp 𝕄) ⊣⊢ (dats m 0 c).arrays Fa := by
  rw [arrBufs0_eq, arrays0_eq, hF 0, hF 1, hF 2, hF 3, hF 4, hF 5]
  constructor
  · iintro ⟨H7, H8, H9, H100, H101⟩
    ihave H7 := (pointsTo_share (PosShare.mem_left_op_right fullShare)).1 $$ H7
    icases H7 with ⟨H7l, H7r⟩
    isplitl [H7l]; · iexact H7l
    isplitl [H7r]; · iexact H7r
    isplitl [H8]; · iexact H8
    isplitl [H9]; · iexact H9
    isplitl [H100]; · iexact H100
    iexact H101
  · iintro ⟨H7l, H7r, H8, H9, H100, H101⟩
    ihave H7 := (pointsTo_share (PosShare.mem_left_op_right fullShare)).2 $$ [H7l H7r]
    · isplitl [H7l] <;> iassumption
    isplitl [H7]; · iexact H7
    isplitl [H8]; · iexact H8
    isplitl [H9]; · iexact H9
    isplitl [H100]; · iexact H100
    iexact H101

/-! ## The contents at the region's exit and after the last host lines -/

/-- The core's buffer contents when the region is left: as at its entry, but for the two result arrays, which hold
    what the pipeline wrote back. -/
def Wend (c : Dev nD) : Valuation τ sig (Elt F) :=
  Function.update (Function.update (V0 m c) (Proc.devRef .tc main_v10_0) ((dats m 0 c).arrAt 4 cfg0.N))
    (Proc.devRef .tc main_v10_1) ((dats m 0 c).arrAt 5 cfg0.N)

/-- The same read at a reference of the core. -/
abbrev WendR (c : Dev nD) (b : Ref sig .tc) : Buf (Elt F) ((c : Thread nD τ).loc b) := Wend m c (Proc.devRef .tc b)

/-- The contents after the host lines that follow the region (the two sums, the clamp of the count, the quotient). -/
abbrev Vend (c : Dev nD) (b : Ref sig .tc) : Buf (Elt F) ((c : Thread nD τ).loc b) :=
  StableHlo.after (List.flatten [hostOps1]) (Wend m c) (Proc.devRef .tc b)

theorem Wend_v10_1 (c : Dev nD) : WendR m c main_v10_1 = (dats m 0 c).arrAt 5 cfg0.N := by
  unfold WendR Wend; exact Function.update_self _ _ _
theorem Wend_v10_0 (c : Dev nD) : WendR m c main_v10_0 = (dats m 0 c).arrAt 4 cfg0.N := by
  unfold WendR Wend
  rw [Function.update_of_ne (StableHlo.devRef_ne_of_ne (by decide))]; exact Function.update_self _ _ _
/-- Off the two result arrays nothing changed. -/
theorem Wend_of_ne (c : Dev nD) (b : Ref sig .tc) (h0 : b ≠ main_v10_0) (h1 : b ≠ main_v10_1) : WendR m c b = V m c b := by
  unfold WendR Wend
  rw [Function.update_of_ne (StableHlo.devRef_ne_of_ne h1), Function.update_of_ne (StableHlo.devRef_ne_of_ne h0)]

/-- At the region's exit every window's array holds what the pipeline computes for it. -/
theorem Wend_arr (c : Dev nD) (w : Fin cfg0.W) : (dats m 0 c).arrAt w cfg0.N = WendR m c (Pipeline.arrRef spec0 w) := by
  fin_cases w
  · exact ((dats m 0 c).arrAt_in 0 rfl _).trans ((A_eq m c 0).trans (Wend_of_ne m c _ (by decide) (by decide)).symm)
  · exact ((dats m 0 c).arrAt_in 1 rfl _).trans ((A_eq m c 1).trans (Wend_of_ne m c _ (by decide) (by decide)).symm)
  · exact ((dats m 0 c).arrAt_in 2 rfl _).trans ((A_eq m c 2).trans (Wend_of_ne m c _ (by decide) (by decide)).symm)
  · exact ((dats m 0 c).arrAt_in 3 rfl _).trans ((A_eq m c 3).trans (Wend_of_ne m c _ (by decide) (by decide)).symm)
  · exact (Wend_v10_0 m c).symm
  · exact (Wend_v10_1 m c).symm

/-- The buffers that bypass the region hold at its exit what they held at its entry. -/
theorem rest_Wend (c : Dev nD) :
    (Pipeline.unscopedRest (Ix := Unit) (Name := ℕ) (U := UR sig nD τ) (Lvl := ℕ) spec0 c (WendR m c) : sProp 𝕄)
      = Pipeline.unscopedRest (Ix := Unit) (Name := ℕ) (U := UR sig nD τ) (Lvl := ℕ) spec0 c (V m c) := by
  rw [unscopedRest0_eq, unscopedRest0_eq]
  rw [Wend_of_ne m c main_arg0 (by decide) (by decide), Wend_of_ne m c main_arg1 (by decide) (by decide), Wend_of_ne m c main_v0 (by decide) (by decide), Wend_of_ne m c main_cst (by decide) (by decide), Wend_of_ne m c main_v1 (by decide) (by decide), Wend_of_ne m c main_v2 (by decide) (by decide), Wend_of_ne m c main_v3 (by decide) (by decide), Wend_of_ne m c main_cst_0 (by decide) (by decide), Wend_of_ne m c main_v4 (by decide) (by decide), Wend_of_ne m c main_v5 (by decide) (by decide), Wend_of_ne m c main_v6 (by decide) (by decide), Wend_of_ne m c main_cst_1 (by decide) (by decide), Wend_of_ne m c main_v11 (by decide) (by decide), Wend_of_ne m c main_cst_2 (by decide) (by decide), Wend_of_ne m c main_v12 (by decide) (by decide), Wend_of_ne m c main_cst_3 (by decide) (by decide), Wend_of_ne m c main_v13 (by decide) (by decide), Wend_of_ne m c main_v14 (by decide) (by decide)]

/-- No host line after the region writes a window's array. -/
theorem tail_keeps (c : Dev nD) (Wv : Valuation τ sig (Elt F)) (w : Fin cfg0.W) :
    StableHlo.after (List.flatten [hostOps1]) Wv (Proc.devRef .tc (Pipeline.arrRef spec0 w)) = Wv (Proc.devRef .tc (Pipeline.arrRef spec0 w)) :=
  StableHlo.after_of_forall_not_mem (b := Proc.devRef .tc (Pipeline.arrRef spec0 w)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    fin_cases w <;> (repeat' apply And.intro) <;> exact StableHlo.devRef_ne_of_ne (by decide)))

/-- The host lines after the region touch unscoped buffers of the core only, and allocate nothing. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The host lines after the region -/

set_option backward.isDefEq.respectTransparency.types false in
/-- From the region's exit — the pipeline's arrays at what it computes, the bypassing buffers at their entry contents —
    the host lines after the region run within the core's unscoped buffers: the two halves of the matrix join, the
    lines run from the exit contents, and the matrix splits again. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  have hW : iprop((dats m 0 c).arrays ((dats m 0 c).arrAt · cfg0.N)
        ∗ Pipeline.unscopedRestP (Ix := Unit) (Name := ℕ) (U := UR sig nD τ) (Lvl := ℕ) Pipeline.Prefetch.none spec0 c (V m c))
      ⊢ (StableHlo.held (c : Thread nD τ) (Pipeline.ucRefs τ sig) (Wend m c) : sProp 𝕄) := by
    rw [← Pipeline.unscopedBufs_held (Ix := Unit) (Name := ℕ) (U := UR sig nD τ) (Lvl := ℕ) c (Wend m c),
      Pipeline.unscopedBufs_split₀ cfgs 0 winFacts₀0.arr_unscoped c (WendR m c), Pipeline.unscopedRestP_none, rest_Wend]
    iintro ⟨Ha, Hr⟩
    isplitl [Ha]
    · iapply (arrays0_iff m c (WendR m c) _ (Wend_arr m c)).2; iexact Ha
    iexact Hr
  have hW' : (StableHlo.held (c : Thread nD τ) (Pipeline.ucRefs τ sig) (StableHlo.after (List.flatten [hostOps1]) (Wend m c)) : sProp 𝕄)
      ⊢ iprop((dats m 0 c).arrays ((dats m 0 c).arrAt · cfg0.N)
        ∗ Pipeline.unscopedRestP (Ix := Unit) (Name := ℕ) (U := UR sig nD τ) (Lvl := ℕ) Pipeline.Prefetch.none spec0 c (Vend m c)) := by
    rw [← Pipeline.unscopedBufs_held (Ix := Unit) (Name := ℕ) (U := UR sig nD τ) (Lvl := ℕ) c (StableHlo.after (List.flatten [hostOps1]) (Wend m c)),
      Pipeline.unscopedBufs_split₀ cfgs 0 winFacts₀0.arr_unscoped c (Vend m c), Pipeline.unscopedRestP_none]
    iintro ⟨Ha, Hr⟩
    isplitl [Ha]
    · iapply (arrays0_iff m c (Vend m c) _ (fun w => (Wend_arr m c w).trans (tail_keeps c (Wend m c) w).symm)).1; iexact Ha
    iexact Hr
  rw [← List.append_nil ([StableHlo.seq hostOps1])]
  iintro ⟨Hk, Hb, Ha, Hr⟩
  ihave Hh := hW $$ [Ha Hr]
  · isplitl [Ha] <;> iassumption
  iapply (Pipeline.wp_seqs_then (fun q => (cfgs q).toPCfg (Val := Elt F)) defs₀ Variants.none c (Pipeline.ucRefs τ sig) [] [hostOps1] sfx_sub sfx_fresh (Wend m c)) $$ [Hb Hh]
  · isplitl [Hb] <;> iassumption
  iintro Hb
  rw [Pipeline.chain_nil, wp_pure]
  imodintro
  iapply Hk
  icases Hb with ⟨-, H⟩
  iapply hW'; iexact H

/-! ## The run -/

set_option backward.isDefEq.respectTransparency.types false in
/-- From any memory with zero counters every weakly fair execution of the program terminates, and every final state has
    each window's array at what the pipeline computes from the proof data and every other unscoped buffer at what the
    host lines after the region leave in it. -/
theorem run_main : θ_run defs (onTc (τ := τ) (main (F := F))) (s₀ m ρ) (Pipeline.FramePost cfgs (dats m) 0 (Vend m)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays0_iff m c (V m c) _ (fun w => (show (dats m 0 c).arrAt w 0 = (dats m 0 c).A w from rfl).trans (A_eq m c w))).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := tail_run m)
    (QY := fun c s => ∀ b ∈ Pipeline.restRefsP sig Pipeline.Prefetch.none spec0, s.mem ((c : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Vend m c) s')
      isplitl [HU] <;> iassumption)
    (hQ := fun s h c => ⟨(h c).1, Pipeline.rest_of_restP Pipeline.Prefetch.none spec0 ((cfgs 0).toPCfg_adm (Val := Elt F)).1 c (Vend m c) s (fun k => k.elim0) (h c).2.1 (h c).2.2⟩)

/-! ## The frame -/

/-- No host line, before or after the region, writes an argument array. -/
theorem Vend_main_arg0 (c : Dev nD) : Vend m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wend_of_ne m c main_arg0 (by decide) (by decide)).trans (V_main_arg0 m c))
theorem Vend_main_arg1 (c : Dev nD) : Vend m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wend_of_ne m c main_arg1 (by decide) (by decide)).trans (V_main_arg1 m c))

/-- The program runs to its end from any memory with zero counters, faults nowhere, and leaves both argument arrays as
    they were; its result is what the last host lines compute from the two result arrays the pipeline wrote. -/
theorem run_result : θ_run defs (onTc (τ := τ) (main (F := F))) ⟨m, fun _ => 0, ρ⟩ (fun r => ∀ c : Dev nD,
      r.2.mem ((c : Thread nD τ).loc main_v14) = Vend m c main_v14
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).2 main_v14 (Pipeline.mem_restRefs_of main_v14 rfl (by decide)),
      ((h c).2 main_arg0 (Pipeline.mem_restRefs_of main_arg0 rfl (by decide))).trans (Vend_main_arg0 m c),
      ((h c).2 main_arg1 (Pipeline.mem_restRefs_of main_arg1 rfl (by decide))).trans (Vend_main_arg1 m c)⟩)
    (run_main m ρ)

theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => (h c).2) (run_result m ρ)

end Cert.Kernel.Hand

end
-- ==== Proof.KI.Runs.lean ====
import proofs.«142534_j8615704396051_1_alg».proof.Proof.Gen.KernelIdeal.Launch
import proofs.«142534_j8615704396051_1_alg».proof.Proof.Gen.KernelIdeal.Skeleton
import proofs.«142534_j8615704396051_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents of core `c` when the region is entered: the launch contents after the host lines before it
    (the row normalisation and the two reshapes of the labels). -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, from the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before
    (the block index has not moved), whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds its block at every point, fetched there or kept from the point before
    (the block index has not moved), whenever the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- The first branch (clear the four running rows) is taken at the first column tile of each row tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch (write the two result blocks) is taken at the last column tile of each row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev scM0_2 : Memref sig .tc .vmem S1024x1 .f32 := Memref.whole cc0_scratch2
abbrev VS0_2 : View sig .tc .vmem S1024x1 .f32 := scM0_2.view
abbrev scM0_3 : Memref sig .tc .vmem S1024x1 .f32 := Memref.whole cc0_scratch3
abbrev VS0_3 : View sig .tc .vmem S1024x1 .f32 := scM0_3.view

/-- The region's invariant as it is handed over: the four running rows owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
import proofs.«142534_j8615704396051_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first column tile of a row tile: the four running rows are cleared, then updated. On whole staging buffers — the four inputs' at
    their blocks, the two results' at whatever they hold (the case does not touch them), the four running rows at anything — it runs to its end holding the inputs'
    buffers as they were and every buffer it stores into with its stores written, as pieces (last first); the pieces are
    what running the body finds. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
import proofs.«142534_j8615704396051_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle column tile: the four running rows are updated. On whole staging buffers — the four inputs' at
    their blocks, the two results' at whatever they hold (the case does not touch them), the four running rows at what the point before left in them — it runs to its end holding the inputs'
    buffers as they were and every buffer it stores into with its stores written, as pieces (last first); the pieces are
    what running the body finds. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
import proofs.«142534_j8615704396051_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last column tile of a row tile: the running rows are updated and the two result blocks written. On whole staging buffers — the four inputs' at
    their blocks, the two results' at anything, the four running rows at what the point before left in them — it runs to its end holding the inputs'
    buffers as they were and every buffer it stores into with its stores written, as pieces (last first); the pieces are
    what running the body finds. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    Σ' (L4 : List (View.Piece (Elt F) S1024x1 .f32)) (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Hand

end
-- ==== Proof.KI.Frame.lean ====
import proofs.«142534_j8615704396051_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case leaves in result block 4's staging buffer: its stores read back (none: the block is not touched at such a point, and this value is never consulted). -/
def out0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What the case leaves in result block 5's staging buffer: its stores read back (none: the block is not touched at such a point, and this value is never consulted). -/
def out0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- The case's stores into running row 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S1024x1.size (by sl_kernel_rfl) y

/-- What the case leaves in running row 0: its stores read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- The case's stores into running row 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What the case leaves in running row 1: its stores read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- The case's stores into running row 2 cover it. -/
theorem scover0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What the case leaves in running row 2: its stores read back. -/
def sout0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- The case's stores into running row 3 cover it. -/
theorem scover0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What the case leaves in running row 3: its stores read back. -/
def sout0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What the case leaves in result block 4's staging buffer: its stores read back (none: the block is not touched at such a point, and this value is never consulted). -/
def out0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What the case leaves in result block 5's staging buffer: its stores read back (none: the block is not touched at such a point, and this value is never consulted). -/
def out0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- The case's stores into running row 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the case leaves in running row 0: its stores read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- The case's stores into running row 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S1024x1.size (by sl_kernel_rfl) y

/-- What the case leaves in running row 1: its stores read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- The case's stores into running row 2 cover it. -/
theorem scover0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S1024x1.size (by sl_kernel_rfl) y

/-- What the case leaves in running row 2: its stores read back. -/
def sout0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- The case's stores into running row 3 cover it. -/
theorem scover0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S1024x1.size (by sl_kernel_rfl) y

/-- What the case leaves in running row 3: its stores read back. -/
def sout0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- The last column tile's stores into result block 4 cover it (one store of the whole block). -/
theorem cover0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What the case leaves in result block 4's staging buffer: its stores read back. -/
def out0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- The last column tile's stores into result block 5 cover it (one store of the whole block). -/
theorem cover0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the case leaves in result block 5's staging buffer: its stores read back. -/
def out0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- The case's stores into running row 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the case leaves in running row 0: its stores read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- The case's stores into running row 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S1024x1.size (by sl_kernel_rfl) y

/-- What the case leaves in running row 1: its stores read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- The case's stores into running row 2 cover it. -/
theorem scover0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S1024x1.size (by sl_kernel_rfl) y

/-- What the case leaves in running row 2: its stores read back. -/
def sout0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- The case's stores into running row 3 cover it. -/
theorem scover0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S1024x1.size (by sl_kernel_rfl) y

/-- What the case leaves in running row 3: its stores read back. -/
def sout0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-! ## What the buffers hold after each point -/

/-- The accumulation: what the two result blocks' staging buffers and the four running rows hold after the body at
    grid position `n` — the case the position is in (first, middle or last column tile of its row tile), run on the
    point's input blocks and, but at a first column tile, on the running rows as position `n - 1` left them. -/
def outsAt0 (c : Dev nD) : (n : ℕ) → n < cfg0.N → Vec F S1024x1 .f32 × Vec F S1024x1 .f32 × Vec F S1024x1 .f32 × Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
         sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- At a first column tile. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
         sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle column tile. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
         sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the running rows at anything; afterwards each
    running row at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The arrays as the region finds them; after the body at point `t` each input's buffer at its block and the two
    results' at the accumulation's components; the invariant above; nothing owed. The normalised matrix is handed to
    the kernel twice (row tiles and column tiles): each of the two windows on it holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point. The inputs' buffers hold their blocks; the position's remainder modulo 16 says which of the
    three cases it is in, and that case's run applies: the invariant hands over the running rows at what the point
    before left (at anything at the very first point) and takes them back at this point's contents; a result block's
    buffer is handed back untouched except at a last column tile, where it holds the case's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1 sout0_A_2 sout0_A_3; (try dsimp only)
      by_cases hz : t.val = 0
      ·
        rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1 sout0_C_2 sout0_C_3; (try dsimp only)
      by_cases hz : t.val = 0
      · exfalso; omega
      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1 sout0_B_2 sout0_B_3; (try dsimp only)
      by_cases hz : t.val = 0
      · exfalso; omega
      ·
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the running rows back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KI.Launch.lean ====
import proofs.«142534_j8615704396051_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows: one of them is handed to the kernel twice

The row-normalised matrix is the array of both window 0 (row tiles) and window 1 (column tiles). The launch deals each
distinct array once, whole; the pipeline holds one points-to per window, so the matrix's is split in its two halves on
the way in and joined again on the way out. -/

/-- The distinct arrays behind the six windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) := by
  unfold Pipeline.arrBufs
  exact bigSep_eq_bigSepL_of_eq [main_v7, main_v8, main_v9, main_v10_0, main_v10_1] (by decide) (by decide) _

/-- The pipeline's arrays, window by window, each at its share. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2) ∗ (((c : Thread nD τ).loc main_v9) ↦{fullShare} Fa 3)
          ∗ (((c : Thread nD τ).loc main_v10_0) ↦{fullShare} Fa 4) ∗ (((c : Thread nD τ).loc main_v10_1) ↦{fullShare} Fa 5)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ]
  rfl

/-- The distinct arrays at contents `W` are the pipeline's arrays at the same contents, window by window: the
    matrix's points-to splits along its share into the two windows' halves, and joins back. -/
theorem arrays0_iff (c : Dev nD) (W : (b : Ref sig .tc) → Buf (Elt F) ((c : Thread nD τ).loc b))
    (Fa : (w : Fin cfg0.W) → Buf (Elt F) ((cfg0.win w).arr.view.loc (c : Thread nD τ)))
    (hF : ∀ w, Fa w = W (Pipeline.arrRef spec0 w)) :
    (Pipeline.arrBufs (Ix := Unit) (Name := ℕ) (U := UR sig nD τ) (Lvl := ℕ) spec0 c W : sProp 𝕄) ⊣⊢ (dats m 0 c).arrays Fa := by
  rw [arrBufs0_eq, arrays0_eq, hF 0, hF 1, hF 2, hF 3, hF 4, hF 5]
  constructor
  · iintro ⟨H7, H8, H9, H100, H101⟩
    ihave H7 := (pointsTo_share (PosShare.mem_left_op_right fullShare)).1 $$ H7
    icases H7 with ⟨H7l, H7r⟩
    isplitl [H7l]; · iexact H7l
    isplitl [H7r]; · iexact H7r
    isplitl [H8]; · iexact H8
    isplitl [H9]; · iexact H9
    isplitl [H100]; · iexact H100
    iexact H101
  · iintro ⟨H7l, H7r, H8, H9, H100, H101⟩
    ihave H7 := (pointsTo_share (PosShare.mem_left_op_right fullShare)).2 $$ [H7l H7r]
    · isplitl [H7l] <;> iassumption
    isplitl [H7]; · iexact H7
    isplitl [H8]; · iexact H8
    isplitl [H9]; · iexact H9
    isplitl [H100]; · iexact H100
    iexact H101

/-! ## The contents at the region's exit and after the last host lines -/

/-- The core's buffer contents when the region is left: as at its entry, but for the two result arrays, which hold
    what the pipeline wrote back. -/
def Wend (c : Dev nD) : Valuation τ sig (Elt F) :=
  Function.update (Function.update (V0 m c) (Proc.devRef .tc main_v10_0) ((dats m 0 c).arrAt 4 cfg0.N))
    (Proc.devRef .tc main_v10_1) ((dats m 0 c).arrAt 5 cfg0.N)

/-- The same read at a reference of the core. -/
abbrev WendR (c : Dev nD) (b : Ref sig .tc) : Buf (Elt F) ((c : Thread nD τ).loc b) := Wend m c (Proc.devRef .tc b)

/-- The contents after the host lines that follow the region (the two sums, the clamp of the count, the quotient). -/
abbrev Vend (c : Dev nD) (b : Ref sig .tc) : Buf (Elt F) ((c : Thread nD τ).loc b) :=
  StableHlo.after (List.flatten [hostOps1]) (Wend m c) (Proc.devRef .tc b)

theorem Wend_v10_1 (c : Dev nD) : WendR m c main_v10_1 = (dats m 0 c).arrAt 5 cfg0.N := by
  unfold WendR Wend; exact Function.update_self _ _ _
theorem Wend_v10_0 (c : Dev nD) : WendR m c main_v10_0 = (dats m 0 c).arrAt 4 cfg0.N := by
  unfold WendR Wend
  rw [Function.update_of_ne (StableHlo.devRef_ne_of_ne (by decide))]; exact Function.update_self _ _ _
/-- Off the two result arrays nothing changed. -/
theorem Wend_of_ne (c : Dev nD) (b : Ref sig .tc) (h0 : b ≠ main_v10_0) (h1 : b ≠ main_v10_1) : WendR m c b = V m c b := by
  unfold WendR Wend
  rw [Function.update_of_ne (StableHlo.devRef_ne_of_ne h1), Function.update_of_ne (StableHlo.devRef_ne_of_ne h0)]

/-- At the region's exit every window's array holds what the pipeline computes for it. -/
theorem Wend_arr (c : Dev nD) (w : Fin cfg0.W) : (dats m 0 c).arrAt w cfg0.N = WendR m c (Pipeline.arrRef spec0 w) := by
  fin_cases w
  · exact ((dats m 0 c).arrAt_in 0 rfl _).trans ((A_eq m c 0).trans (Wend_of_ne m c _ (by decide) (by decide)).symm)
  · exact ((dats m 0 c).arrAt_in 1 rfl _).trans ((A_eq m c 1).trans (Wend_of_ne m c _ (by decide) (by decide)).symm)
  · exact ((dats m 0 c).arrAt_in 2 rfl _).trans ((A_eq m c 2).trans (Wend_of_ne m c _ (by decide) (by decide)).symm)
  · exact ((dats m 0 c).arrAt_in 3 rfl _).trans ((A_eq m c 3).trans (Wend_of_ne m c _ (by decide) (by decide)).symm)
  · exact (Wend_v10_0 m c).symm
  · exact (Wend_v10_1 m c).symm

/-- The buffers that bypass the region hold at its exit what they held at its entry. -/
theorem rest_Wend (c : Dev nD) :
    (Pipeline.unscopedRest (Ix := Unit) (Name := ℕ) (U := UR sig nD τ) (Lvl := ℕ) spec0 c (WendR m c) : sProp 𝕄)
      = Pipeline.unscopedRest (Ix := Unit) (Name := ℕ) (U := UR sig nD τ) (Lvl := ℕ) spec0 c (V m c) := by
  rw [unscopedRest0_eq, unscopedRest0_eq]
  rw [Wend_of_ne m c main_arg0 (by decide) (by decide), Wend_of_ne m c main_arg1 (by decide) (by decide), Wend_of_ne m c main_v0 (by decide) (by decide), Wend_of_ne m c main_cst (by decide) (by decide), Wend_of_ne m c main_v1 (by decide) (by decide), Wend_of_ne m c main_v2 (by decide) (by decide), Wend_of_ne m c main_v3 (by decide) (by decide), Wend_of_ne m c main_cst_0 (by decide) (by decide), Wend_of_ne m c main_v4 (by decide) (by decide), Wend_of_ne m c main_v5 (by decide) (by decide), Wend_of_ne m c main_v6 (by decide) (by decide), Wend_of_ne m c main_cst_1 (by decide) (by decide), Wend_of_ne m c main_v11 (by decide) (by decide), Wend_of_ne m c main_cst_2 (by decide) (by decide), Wend_of_ne m c main_v12 (by decide) (by decide), Wend_of_ne m c main_cst_3 (by decide) (by decide), Wend_of_ne m c main_v13 (by decide) (by decide), Wend_of_ne m c main_v14 (by decide) (by decide)]

/-- No host line after the region writes a window's array. -/
theorem tail_keeps (c : Dev nD) (Wv : Valuation τ sig (Elt F)) (w : Fin cfg0.W) :
    StableHlo.after (List.flatten [hostOps1]) Wv (Proc.devRef .tc (Pipeline.arrRef spec0 w)) = Wv (Proc.devRef .tc (Pipeline.arrRef spec0 w)) :=
  StableHlo.after_of_forall_not_mem (b := Proc.devRef .tc (Pipeline.arrRef spec0 w)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    fin_cases w <;> (repeat' apply And.intro) <;> exact StableHlo.devRef_ne_of_ne (by decide)))

/-- The host lines after the region touch unscoped buffers of the core only, and allocate nothing. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The host lines after the region -/

set_option backward.isDefEq.respectTransparency.types false in
/-- From the region's exit — the pipeline's arrays at what it computes, the bypassing buffers at their entry contents —
    the host lines after the region run within the core's unscoped buffers: the two halves of the matrix join, the
    lines run from the exit contents, and the matrix splits again. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  have hW : iprop((dats m 0 c).arrays ((dats m 0 c).arrAt · cfg0.N)
        ∗ Pipeline.unscopedRestP (Ix := Unit) (Name := ℕ) (U := UR sig nD τ) (Lvl := ℕ) Pipeline.Prefetch.none spec0 c (V m c))
      ⊢ (StableHlo.held (c : Thread nD τ) (Pipeline.ucRefs τ sig) (Wend m c) : sProp 𝕄) := by
    rw [← Pipeline.unscopedBufs_held (Ix := Unit) (Name := ℕ) (U := UR sig nD τ) (Lvl := ℕ) c (Wend m c),
      Pipeline.unscopedBufs_split₀ cfgs 0 winFacts₀0.arr_unscoped c (WendR m c), Pipeline.unscopedRestP_none, rest_Wend]
    iintro ⟨Ha, Hr⟩
    isplitl [Ha]
    · iapply (arrays0_iff m c (WendR m c) _ (Wend_arr m c)).2; iexact Ha
    iexact Hr
  have hW' : (StableHlo.held (c : Thread nD τ) (Pipeline.ucRefs τ sig) (StableHlo.after (List.flatten [hostOps1]) (Wend m c)) : sProp 𝕄)
      ⊢ iprop((dats m 0 c).arrays ((dats m 0 c).arrAt · cfg0.N)
        ∗ Pipeline.unscopedRestP (Ix := Unit) (Name := ℕ) (U := UR sig nD τ) (Lvl := ℕ) Pipeline.Prefetch.none spec0 c (Vend m c)) := by
    rw [← Pipeline.unscopedBufs_held (Ix := Unit) (Name := ℕ) (U := UR sig nD τ) (Lvl := ℕ) c (StableHlo.after (List.flatten [hostOps1]) (Wend m c)),
      Pipeline.unscopedBufs_split₀ cfgs 0 winFacts₀0.arr_unscoped c (Vend m c), Pipeline.unscopedRestP_none]
    iintro ⟨Ha, Hr⟩
    isplitl [Ha]
    · iapply (arrays0_iff m c (Vend m c) _ (fun w => (Wend_arr m c w).trans (tail_keeps c (Wend m c) w).symm)).1; iexact Ha
    iexact Hr
  rw [← List.append_nil ([StableHlo.seq hostOps1])]
  iintro ⟨Hk, Hb, Ha, Hr⟩
  ihave Hh := hW $$ [Ha Hr]
  · isplitl [Ha] <;> iassumption
  iapply (Pipeline.wp_seqs_then (fun q => (cfgs q).toPCfg (Val := Elt F)) defs₀ Variants.none c (Pipeline.ucRefs τ sig) [] [hostOps1] sfx_sub sfx_fresh (Wend m c)) $$ [Hb Hh]
  · isplitl [Hb] <;> iassumption
  iintro Hb
  rw [Pipeline.chain_nil, wp_pure]
  imodintro
  iapply Hk
  icases Hb with ⟨-, H⟩
  iapply hW'; iexact H

/-! ## The run -/

set_option backward.isDefEq.respectTransparency.types false in
/-- From any memory with zero counters every weakly fair execution of the program terminates, and every final state has
    each window's array at what the pipeline computes from the proof data and every other unscoped buffer at what the
    host lines after the region leave in it. -/
theorem run_main : θ_run defs (onTc (τ := τ) (main (F := F))) (s₀ m ρ) (Pipeline.FramePost cfgs (dats m) 0 (Vend m)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays0_iff m c (V m c) _ (fun w => (show (dats m 0 c).arrAt w 0 = (dats m 0 c).A w from rfl).trans (A_eq m c w))).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := tail_run m)
    (QY := fun c s => ∀ b ∈ Pipeline.restRefsP sig Pipeline.Prefetch.none spec0, s.mem ((c : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Vend m c) s')
      isplitl [HU] <;> iassumption)
    (hQ := fun s h c => ⟨(h c).1, Pipeline.rest_of_restP Pipeline.Prefetch.none spec0 ((cfgs 0).toPCfg_adm (Val := Elt F)).1 c (Vend m c) s (fun k => k.elim0) (h c).2.1 (h c).2.2⟩)

/-! ## The frame -/

/-- No host line, before or after the region, writes an argument array. -/
theorem Vend_main_arg0 (c : Dev nD) : Vend m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wend_of_ne m c main_arg0 (by decide) (by decide)).trans (V_main_arg0 m c))
theorem Vend_main_arg1 (c : Dev nD) : Vend m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wend_of_ne m c main_arg1 (by decide) (by decide)).trans (V_main_arg1 m c))

/-- The program runs to its end from any memory with zero counters, faults nowhere, and leaves both argument arrays as
    they were; its result is what the last host lines compute from the two result arrays the pipeline wrote. -/
theorem run_result : θ_run defs (onTc (τ := τ) (main (F := F))) ⟨m, fun _ => 0, ρ⟩ (fun r => ∀ c : Dev nD,
      r.2.mem ((c : Thread nD τ).loc main_v14) = Vend m c main_v14
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).2 main_v14 (Pipeline.mem_restRefs_of main_v14 rfl (by decide)),
      ((h c).2 main_arg0 (Pipeline.mem_restRefs_of main_arg0 rfl (by decide))).trans (Vend_main_arg0 m c),
      ((h c).2 main_arg1 (Pipeline.mem_restRefs_of main_arg1 rfl (by decide))).trans (Vend_main_arg1 m c)⟩)
    (run_main m ρ)

theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => (h c).2) (run_result m ρ)

end Cert.KernelIdeal.Hand

end
-- ==== Proof.KI.Pieces.lean ====
import proofs.«142534_j8615704396051_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, as the body's pure terms

Every store of the body writes a whole buffer, so what a buffer holds after a case is the payload of the case's last
store into it, over the case's loads: the point's four input blocks, and the running rows as the case found them (at a
first column tile: as the case's own clearing stores left them). -/

theorem hzz : (![0, 0] : Fin 2 → Nat) = fun _ => 0 := funext fun a => by fin_cases a <;> rfl

set_option maxHeartbeats 2000000 in
theorem sout0_A_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 = k0_pay11 (k0_pay9 i x0 x1 x2 x3) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_A_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 = k0_pay12 (k0_pay10 x0 x1 x2 x3) (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_A_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    sout0_A_2 c i arg2 harg2 arg3 harg3 arg4 harg4 arg5 harg5 arg6 harg6 arg7 harg7 arg8 harg8 arg9 harg9 arg10 harg10 arg11 harg11 hc0 hc1 x0 x1 x2 x3 = k0_pay13 (k0_pay7 i x2 x3) (k0_pay3 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_A_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x1 .i32) (x3 : Vec F S1x512 .i32) :
    sout0_A_3 c i arg2 harg2 arg3 harg3 arg4 harg4 arg5 harg5 arg6 harg6 arg7 harg7 arg8 harg8 arg9 harg9 arg10 harg10 arg11 harg11 hc0 hc1 x0 x1 x2 x3 = k0_pay14 (k0_pay8 x2 x3) (k0_pay4 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_B_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay11 (k0_pay9 i x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_B_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay12 (k0_pay10 x0 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_B_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay13 (k0_pay7 i x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_B_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay14 (k0_pay8 x2 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_C_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay11 (k0_pay9 i x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_C_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay12 (k0_pay10 x0 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_C_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay13 (k0_pay7 i x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem sout0_C_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay14 (k0_pay8 x2 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem out0_C_4_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay16 (k0_pay13 (k0_pay7 i x2 x3) xs2) (k0_pay14 (k0_pay8 x2 x3) xs3) (k0_pay11 (k0_pay9 i x0 x1 x2 x3) xs0) (k0_pay12 (k0_pay10 x0 x1 x2 x3) xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

set_option maxHeartbeats 2000000 in
theorem out0_C_5_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x1 .i32) (x3 : Vec F S1x512 .i32) (xs0 : Vec F S1024x1 .f32) (xs1 : Vec F S1024x1 .f32) (xs2 : Vec F S1024x1 .f32) (xs3 : Vec F S1024x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay17 (k0_pay13 (k0_pay7 i x2 x3) xs2) (k0_pay14 (k0_pay8 x2 x3) xs3) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_cons_unit_zero hzz]
  simp only [View.readAt_eq_ld, View.readCov_unit_zero (S := S1024x1) (off := ![0, 0]) arg8.view hzz, View.readCov_unit_zero (S := S1024x1) (off := ![0, 0]) arg9.view hzz, View.readCov_unit_zero (S := S1024x1) (off := ![0, 0]) arg10.view hzz, View.readCov_unit_zero (S := S1024x1) (off := ![0, 0]) arg11.view hzz, harg2.read_unread, harg3.read_unread, harg4.read_unread, harg5.read_unread, harg8.read_unread, harg9.read_unread, harg10.read_unread, harg11.read_unread,
    View.ld_unit_zero (S := S1024x1) hzz, View.ld_unit_zero (S := S1024x128) hzz, View.ld_unit_zero (S := S512x128) hzz, View.ld_unit_zero (S := S1x512) hzz]
  try rfl

end Cert.KernelIdeal.Hand

end
-- ==== Proof.Spec.lean ====
/-
  The function both programs compute, over coordinates: batch-hard triplet loss with cosine distance.

  For a matrix x of 8192 rows and 128 columns and a label per row:
    e i      = row i of x divided by max (‖row i‖, ε)                 (ε the float 1e-12)
    dist i j = 1 − Σ_k e i k · e j k
    hp i     = the largest  dist i j over the j ≠ i with the label of i (−1 standing in elsewhere)
    hn i     = the smallest dist i j over the j with another label       (3 standing in elsewhere)
    row i    = max (hp i − hn i + margin, 0) when row i has both a positive and a negative, else 0
    result   = (Σ_i row i) / max (number of such rows, 1).
  Everything is read at the extended reals; the float literals are kept as the words the programs print.
-/
import Idealize.ShloMosaic.PureOps.Ideal
import Idealize.ShloMosaic.Lib.ValueIdx

noncomputable section

namespace Cert.Spec

open Idealize.ShloMosaic
open Classical

/-- The literals, as the words both programs print. -/
def eps : EReal := Ideal.ofBits .f32 0x2B8CBCCC#32
def one : EReal := Ideal.ofBits .f32 0x3F800000#32
def negOne : EReal := Ideal.ofBits .f32 0xBF800000#32
def three : EReal := Ideal.ofBits .f32 0x40400000#32
def margin : EReal := Ideal.ofBits .f32 0x3E99999A#32
def zero : EReal := Ideal.ofBits .f32 0x00000000#32

variable (x : Fin 8192 → Fin 128 → EReal) (lab : Fin 8192 → BitVec 32)

/-- The sum of squares of row `i`, started from the float zero. -/
def sq (i : Fin 8192) : EReal := zero + ∑ k : Fin 128, x i k * x i k
/-- The clamped norm of row `i`. -/
def nrm (i : Fin 8192) : EReal := max (Ideal.sqrt (sq x i)) eps
/-- The normalised row. -/
def e (i : Fin 8192) (k : Fin 128) : EReal := Ideal.div (x i k) (nrm x i)
/-- Cosine similarity and distance of rows `i` and `j`. -/
def sim (i j : Fin 8192) : EReal := ∑ k : Fin 128, e x i k * e x j k
def dist (i j : Fin 8192) : EReal := one - sim x i j

/-- `j` is a positive for `i`: same label, another row. -/
def pos (i j : Fin 8192) : Prop := lab i = lab j ∧ i ≠ j
/-- `j` is a negative for `i`: another label. -/
def neg (i j : Fin 8192) : Prop := lab i ≠ lab j

/-- The hardest positive and the hardest negative of row `i`. -/
def hp (i : Fin 8192) : EReal := ⨆ j : Fin 8192, if pos lab i j then dist x i j else negOne
def hn (i : Fin 8192) : EReal := ⨅ j : Fin 8192, if neg lab i j then dist x i j else three

/-- Row `i` counts: it has a positive and a negative. -/
def valid (i : Fin 8192) : Prop := (∃ j, pos lab i j) ∧ (∃ j, neg lab i j)

/-- The row's hinge term. -/
def row (i : Fin 8192) : EReal := if valid lab i then max (hp x lab i - hn x lab i + margin) zero else zero

/-- The sum of the hinge terms, started from the float zero, and the number of rows that count. -/
def loss : EReal := zero + ∑ i : Fin 8192, row x lab i
def cnt : ℕ := (Finset.univ.filter fun i : Fin 8192 => valid lab i).card

/-- The mean hinge term over the rows that count. -/
def result : EReal := Ideal.div (loss x lab) (max (((cnt lab : ℕ) : ℝ) : EReal) one)

end Cert.Spec

end
-- ==== Proof.KI.TileA.lean ====
/-
  The kernel body's pointwise steps, read at a row of the tile.

  The four running rows start at -1, 3, 0 and 0. The running maximum of the hardest positive is the maximum of the
  row's old value and the tile's. On the last column tile a row counts when both of its flags are above zero; its
  hinge term is then max (hp - hn + margin, 0) and otherwise 0, and the flag written out is 1 or 0.
-/
import proofs.«142534_j8615704396051_1_alg».proof.Proof.Gen.KernelIdeal.Skeleton
import proofs.«142534_j8615704396051_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileMath

open Cert.KernelIdeal Cert.KernelIdeal.Gen Idealize.ShloMosaic Idealize.ShloMosaic.ValueIdx

/-! ## The initial values of the four running rows -/

theorem pay1_apply (p : Fin 1024) : k0_pay1 (F := Ideal) (ix2 p (0 : Fin 1)) = Cert.Spec.negOne := by
  unfold k0_pay1
  simp only [shapeCast_self]
  rfl

theorem pay2_apply (p : Fin 1024) : k0_pay2 (F := Ideal) (ix2 p (0 : Fin 1)) = Cert.Spec.three := by
  unfold k0_pay2
  simp only [shapeCast_self]
  rfl

theorem pay3_apply (p : Fin 1024) : k0_pay3 (F := Ideal) (ix2 p (0 : Fin 1)) = (0 : EReal) := by
  unfold k0_pay3
  simp only [shapeCast_self]
  exact Ideal.ofBits_zero_f32

theorem pay4_apply (p : Fin 1024) : k0_pay4 (F := Ideal) (ix2 p (0 : Fin 1)) = (0 : EReal) := by
  unfold k0_pay4
  simp only [shapeCast_self]
  exact Ideal.ofBits_zero_f32

/-! ## The running maximum of the hardest positive -/

theorem pay11_apply (v35 : FVec Ideal S1024x1 .f32) (v48 : Vec Ideal S1024x1 .f32) (p : Fin 1024) :
    k0_pay11 v35 v48 (ix2 p (0 : Fin 1)) = max (v48 (ix2 p (0 : Fin 1))) (v35 (ix2 p (0 : Fin 1))) := by
  unfold k0_pay11
  simp only [shapeCast_self]
  rfl

/-! ## The last step -/

/-- An ordered "greater than" at the extended reals says the order. -/
theorem cmp_ogt_eq_one (x y : EReal) : Ideal.cmp .ogt x y = 1#1 ↔ y < x := by
  show BitVec.ofBool (decide (y < x)) = 1#1 ↔ y < x
  by_cases h : y < x
  · simp [h]
  · simp [h]

/-- The row counts: both flags are above zero. -/
theorem pay15_apply (v71 v74 : Vec Ideal S1024x1 .f32) (p : Fin 1024) :
    k0_pay15 v71 v74 (ix2 p (0 : Fin 1)) = 1#1 ↔ (0 < v71 (ix2 p (0 : Fin 1)) ∧ 0 < v74 (ix2 p (0 : Fin 1))) := by
  show IntOp.andi (Ideal.cmp .ogt (v71 (ix2 p (0 : Fin 1))) (Ideal.ofBits .f32 0x00000000#32))
      (Ideal.cmp .ogt (v74 (ix2 p (0 : Fin 1))) (Ideal.ofBits .f32 0x00000000#32)) = 1#1 ↔ _
  rw [IntOp.andi_eq_one, cmp_ogt_eq_one, cmp_ogt_eq_one, Ideal.ofBits_zero_f32]

theorem pay16_apply (v71 v74 v78 v79 : Vec Ideal S1024x1 .f32) (p : Fin 1024) :
    k0_pay16 v71 v74 v78 v79 (ix2 p (0 : Fin 1))
      = if (0 < v71 (ix2 p (0 : Fin 1)) ∧ 0 < v74 (ix2 p (0 : Fin 1)))
        then max (v78 (ix2 p (0 : Fin 1)) - v79 (ix2 p (0 : Fin 1)) + Cert.Spec.margin) Cert.Spec.zero
        else Cert.Spec.zero := by
  show Scalar.select (k0_pay15 v71 v74 (ix2 p (0 : Fin 1)))
      (max (v78 (ix2 p (0 : Fin 1)) - v79 (ix2 p (0 : Fin 1)) + Cert.Spec.margin) Cert.Spec.zero) Cert.Spec.zero = _
  unfold Scalar.select
  by_cases h : k0_pay15 v71 v74 (ix2 p (0 : Fin 1)) = 1#1
  · exact (if_pos h).trans (if_pos ((pay15_apply v71 v74 p).mp h)).symm
  · exact (if_neg h).trans (if_neg (fun hh => h ((pay15_apply v71 v74 p).mpr hh))).symm

/-- A one-bit word widened to 32 bits and read signed is 1 or 0. -/
theorem sitofp_extui_bit (b : BitVec 1) :
    (((b.setWidth 32).toInt : ℝ) : EReal) = if b = 1#1 then (1 : EReal) else 0 := by
  rcases BitVec.eq_zero_or_eq_one b with h | h
  · subst h
    have e : (BitVec.setWidth 32 (0#1)).toInt = 0 := by decide
    rw [e, if_neg (by decide)]
    simp
  · subst h
    have e : (BitVec.setWidth 32 (1#1)).toInt = 1 := by decide
    rw [e, if_pos rfl]
    simp

theorem pay17_apply (v71 v74 : Vec Ideal S1024x1 .f32) (p : Fin 1024) :
    k0_pay17 v71 v74 (ix2 p (0 : Fin 1))
      = if (0 < v71 (ix2 p (0 : Fin 1)) ∧ 0 < v74 (ix2 p (0 : Fin 1))) then (1 : EReal) else 0 := by
  show ((((k0_pay15 v71 v74 (ix2 p (0 : Fin 1))).setWidth 32).toInt : ℝ) : EReal) = _
  rw [sitofp_extui_bit]
  by_cases h : k0_pay15 v71 v74 (ix2 p (0 : Fin 1)) = 1#1
  · rw [if_pos h, if_pos ((pay15_apply v71 v74 p).mp h)]
  · rw [if_neg h, if_neg (fun hh => h ((pay15_apply v71 v74 p).mpr hh))]

end Cert.KernelIdeal.TileMath

end
-- ==== Proof.KI.TileB.lean ====
/-
  The distance tile, read at a row p and a column q of the tile.

  The rounding to bf16 on the way into the product is the identity at the extended reals, the column block is
  transposed, and the product accumulates into the zero constant: the entry is the sum over the 128 features of the
  products of row p of the row block and row q of the column block; the distance is 1 minus that sum.
-/
import proofs.«142534_j8615704396051_1_alg».proof.Proof.Gen.KernelIdeal.Skeleton
import proofs.«142534_j8615704396051_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileMath

open Cert.KernelIdeal Cert.KernelIdeal.Gen Idealize.ShloMosaic Idealize.ShloMosaic.ValueIdx

/-- The product's dimension numbers: rows by features times features by columns. -/
abbrev tileDot : DotDims S1024x128 S128x512 S1024x512 := dot_S1024x128_S128x512_S1024x512_1_0_0_1_n_n

theorem tileDot_lhs0 (j : S1024x512.Idx) (k : tileDot.contr.Idx) : (tileDot.lhsIdx j k 0).val = (j 0).val := by
  unfold DotDims.lhsIdx
  rw [dif_neg (show ¬(0 : Fin S1024x128.rank) ∈ tileDot.lhsBatch by decide),
    dif_pos (show (0 : Fin S1024x128.rank) ∈ tileDot.lhsNonContracting by decide)]
  rfl

theorem tileDot_lhs1 (j : S1024x512.Idx) (k : tileDot.contr.Idx) :
    (tileDot.lhsIdx j k 1).val = (k ⟨0, by decide⟩).val :=
  tileDot.lhsIdx_val_of_single rfl j k

theorem tileDot_rhs0 (j : S1024x512.Idx) (k : tileDot.contr.Idx) :
    (tileDot.rhsIdx j k 0).val = (k ⟨0, by decide⟩).val :=
  tileDot.rhsIdx_val_of_single rfl j k

theorem tileDot_rhs1 (j : S1024x512.Idx) (k : tileDot.contr.Idx) : (tileDot.rhsIdx j k 1).val = (j 1).val := by
  unfold DotDims.rhsIdx
  rw [dif_neg (show ¬(1 : Fin S128x512.rank) ∈ tileDot.rhsBatch by decide),
    dif_pos (show (1 : Fin S128x512.rank) ∈ tileDot.rhsNonContracting by decide)]
  rfl

/-- The product into the zero constant, at (p, q): the sum over the features. -/
theorem matmul_read (y0 : FVec Ideal S1024x128 .bf16) (y1 : FVec Ideal S128x512 .bf16) (p : Fin 1024) (q : Fin 512) :
    matmul tileDot none y0 y1 (constant (F := Ideal) S1024x512 .f32 0x00000000#32) (ix2 p q)
      = ∑ k : Fin 128, y0 (ix2 p k) * y1 (ix2 k q) := by
  refine (Ideal.matmul_constant_zero_apply tileDot none y0 y1 (ix2 p q)).trans ?_
  rw [← Equiv.sum_comp (contrEquiv1 tileDot 128 rfl rfl).symm]
  refine Finset.sum_congr rfl fun k _ => ?_
  have hk := contrEquiv1_symm_val tileDot 128 rfl rfl k
  have el : tileDot.lhsIdx (ix2 p q) ((contrEquiv1 tileDot 128 rfl rfl).symm k) = ix2 p k :=
    funext fun a => Fin.ext (by
      match a with
      | ⟨0, _⟩ => exact tileDot_lhs0 _ _
      | ⟨1, _⟩ => exact (tileDot_lhs1 _ _).trans hk)
  have er : tileDot.rhsIdx (ix2 p q) ((contrEquiv1 tileDot 128 rfl rfl).symm k) = ix2 k q :=
    funext fun a => Fin.ext (by
      match a with
      | ⟨0, _⟩ => exact (tileDot_rhs0 _ _).trans hk
      | ⟨1, _⟩ => exact tileDot_rhs1 _ _)
  rw [el, er]

/-- The distance tile at (p, q). -/
theorem pay5_apply (x0 : Vec Ideal S1024x128 .f32) (x1 : Vec Ideal S512x128 .f32) (p : Fin 1024) (q : Fin 512) :
    k0_pay5 x0 x1 (ix2 p q) = Cert.Spec.one - ∑ k : Fin 128, x0 (ix2 p k) * x1 (ix2 q k) := by
  unfold k0_pay5
  show Cert.Spec.one - matmul tileDot none _ _ (constant (F := Ideal) S1024x512 .f32 0x00000000#32) (ix2 p q) = _
  rw [matmul_read]
  refine congrArg (fun z => Cert.Spec.one - z) (Finset.sum_congr rfl fun k _ => ?_)
  rw [transpose_ix2_apply]
  simp only [shapeCast_self]
  rfl

end Cert.KernelIdeal.TileMath

end
-- ==== Proof.KI.TileC.lean ====
/-
  The two masks of the tile and the negatives' distance tile, read at a row p and a column q of the tile.

  Column q of the tile is a positive for row p when the two labels agree and the global row index
  (row tile) * 1024 + p differs from the global column index (column tile) * 512 + q; it is a negative when the two
  labels differ. The index words are 32-bit; the indices stay below 2^32, so the words compare as the numbers do.
-/
import proofs.«142534_j8615704396051_1_alg».proof.Proof.Gen.KernelIdeal.Skeleton
import proofs.«142534_j8615704396051_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileMath

open Cert.KernelIdeal Cert.KernelIdeal.Gen Idealize.ShloMosaic Idealize.ShloMosaic.ValueIdx

/-! ## Layout and words -/

/-- A column of 1024 entries broadcast over 512 columns reads, at (p, q), the column at p. -/
theorem bcast_col {α : Type} (v : S1024x1.Idx → α) (h : S1024x1.Broadcasts S1024x512) (p : Fin 1024) (q : Fin 512) :
    broadcastTo S1024x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row of 512 entries broadcast over 1024 rows reads, at (p, q), the row at q. -/
theorem bcast_row {α : Type} (v : S1x512.Idx → α) (h : S1x512.Broadcasts S1024x512) (p : Fin 1024) (q : Fin 512) :
    broadcastTo S1024x512 v h (ix2 p q) = v (ix2 (0 : Fin 1) q) :=
  broadcastTo_1b_ab_apply v h p q

/-- Exclusive-or with the true bit is the negation. -/
theorem xori_one_eq_one (c : BitVec 1) : IntOp.xori c 1#1 = 1#1 ↔ ¬ c = 1#1 := by
  revert c; decide

/-- Two 32-bit words of numbers below 2^32 are equal exactly when the numbers are. -/
theorem ofNat32_inj (m n : ℕ) (hm : m < 2 ^ 32) (hn : n < 2 ^ 32) : BitVec.ofNat 32 m = BitVec.ofNat 32 n ↔ m = n := by
  constructor
  · intro h
    have e := congrArg BitVec.toNat h
    rw [BitVec.toNat_ofNat, BitVec.toNat_ofNat, Nat.mod_eq_of_lt hm, Nat.mod_eq_of_lt hn] at e
    exact e
  · intro h; rw [h]

/-- A tile's offset word plus a coordinate word is the word of the global index. -/
theorem word_affine (a s p : ℕ) :
    IntOp.addi (Scalar.muli (BitVec.ofNat 32 a) (BitVec.ofNat 32 s)) (BitVec.ofNat 32 p) = BitVec.ofNat 32 (a * s + p) := by
  show BitVec.ofNat 32 a * BitVec.ofNat 32 s + BitVec.ofNat 32 p = _
  rw [← BitVec.ofNat_mul, ← BitVec.ofNat_add]

/-! ## The masks -/

/-- The labels agree. -/
theorem pay6_apply (x2 : Vec Ideal S1024x1 .i32) (x3 : Vec Ideal S1x512 .i32) (p : Fin 1024) (q : Fin 512) :
    k0_pay6 (F := Ideal) x2 x3 (ix2 p q) = 1#1 ↔ x2 (ix2 p (0 : Fin 1)) = x3 (ix2 (0 : Fin 1) q) := by
  unfold k0_pay6
  show IntOp.cmpi .eq (broadcastTo S1024x512 (shapeCast S1024x1 x2 _) _ (ix2 p q))
      (broadcastTo S1024x512 (shapeCast S1x512 x3 _) _ (ix2 p q)) = 1#1 ↔ _
  rw [IntOp.cmpi_eq, bcast_col, bcast_row, shapeCast_self, shapeCast_self]

/-- The negatives' mask: the labels differ. -/
theorem pay8_apply (x2 : Vec Ideal S1024x1 .i32) (x3 : Vec Ideal S1x512 .i32) (p : Fin 1024) (q : Fin 512) :
    k0_pay8 (F := Ideal) x2 x3 (ix2 p q) = 1#1 ↔ x2 (ix2 p (0 : Fin 1)) ≠ x3 (ix2 (0 : Fin 1) q) := by
  show IntOp.xori (k0_pay6 (F := Ideal) x2 x3 (ix2 p q)) 1#1 = 1#1 ↔ _
  rw [xori_one_eq_one, pay6_apply]

/-- The positives' mask: the labels agree and the column is not the row itself. -/
theorem pay7_apply (i : grid0.Coords) (x2 : Vec Ideal S1024x1 .i32) (x3 : Vec Ideal S1x512 .i32) (p : Fin 1024) (q : Fin 512) :
    k0_pay7 (F := Ideal) i x2 x3 (ix2 p q) = 1#1
      ↔ (x2 (ix2 p (0 : Fin 1)) = x3 (ix2 (0 : Fin 1) q) ∧ (i 0).val * 1024 + p.val ≠ (i 1).val * 512 + q.val) := by
  have h0 : (i 0).val < 8 := (i 0).isLt
  have h1 : (i 1).val < 16 := (i 1).isLt
  have hp := p.isLt
  have hq := q.isLt
  show IntOp.andi (k0_pay6 (F := Ideal) x2 x3 (ix2 p q))
      (IntOp.xori (IntOp.cmpi .eq
        (IntOp.addi (Scalar.muli (BitVec.ofNat 32 (i 0).val) (BitVec.ofNat 32 1024))
          (iota .tc S1024x512 32 [0] iota_S1024x512_d0_w32 (ix2 p q)))
        (IntOp.addi (Scalar.muli (BitVec.ofNat 32 (i 1).val) (BitVec.ofNat 32 512))
          (iota .tc S1024x512 32 [1] iota_S1024x512_d1_w32 (ix2 p q)))) 1#1) = 1#1 ↔ _
  rw [IntOp.andi_eq_one, xori_one_eq_one, IntOp.cmpi_eq, pay6_apply, iota_single_apply, iota_single_apply]
  show _ ∧ ¬ IntOp.addi (Scalar.muli (BitVec.ofNat 32 (i 0).val) (BitVec.ofNat 32 1024)) (BitVec.ofNat 32 p.val)
      = IntOp.addi (Scalar.muli (BitVec.ofNat 32 (i 1).val) (BitVec.ofNat 32 512)) (BitVec.ofNat 32 q.val) ↔ _
  rw [word_affine, word_affine, ofNat32_inj _ _ (by omega) (by omega)]

/-! ## The negatives' distance tile -/

theorem pay10_apply (x0 : Vec Ideal S1024x128 .f32) (x1 : Vec Ideal S512x128 .f32) (x2 : Vec Ideal S1024x1 .i32)
    (x3 : Vec Ideal S1x512 .i32) (p : Fin 1024) (q : Fin 512) :
    k0_pay10 x0 x1 x2 x3 (ix2 p q)
      = if k0_pay8 (F := Ideal) x2 x3 (ix2 p q) = 1#1 then k0_pay5 x0 x1 (ix2 p q) else Cert.Spec.three := rfl

end Cert.KernelIdeal.TileMath

end
-- ==== Proof.LibMinReduce.lean ====
/-
  Minima and total sums at the extended reals, for any shapes.

  A float minimum-reduction over ONE axis started from +inf (the word 0x7F800000), read at a reduced index, is the
  infimum over that axis's coordinates of the operand at the index with the coordinate put back: for a kernel's lane
  reduction (`minReduce_single`) and for the host's one-operand reduce with a minimum body (`hostMinReduce_single`).
  Both rest on two small facts: the word 0x7F800000 denotes +inf, and a fold of min started from +inf over a whole
  finite range is the infimum over the range. Also: a total sum is unchanged by re-laying the array in another shape.
-/
import Idealize.ShloMosaic.PureOps.Ideal.Laws
import Idealize.ShloMosaic.PureOps.Reduce

noncomputable section

open scoped BigOperators

namespace Cert.Lib.MinReduce

open Idealize.ShloMosaic

/-- The f32 word 0x7F800000 denotes +inf. -/
theorem ofBits_inf_f32 : Ideal.ofBits .f32 0x7F800000#32 = (⊤ : EReal) := by
  simp [Ideal.ofBits, Ideal.ieee]

/-- A fold of min started from +inf over all of a finite index range is the infimum over the range. -/
theorem fold_min_top_eq_iInf {K : Nat} (f : Fin K → EReal) :
    (Finset.univ : Finset (Fin K)).fold min (⊤ : EReal) f = ⨅ k, f k := by
  rw [← Finset.inf_univ_eq_iInf]
  rfl

/-- A kernel's lane minimum over one axis started from +inf, at reduced index j: the infimum over that axis's
    coordinates k of the operand at j with k put back (`h.lift j k`). The accumulator's proof is taken as the
    printed program spells it. -/
theorem minReduce_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold]
  refine (h.fold_filter_drop_single _ _ src j).trans ?_
  show (Finset.univ : Finset (Fin (s.size a))).fold min (Ideal.ofBits .f32 0x7F800000#32) (fun k => src (h.lift j k)) = _
  rw [ofBits_inf_f32]
  exact fold_min_top_eq_iInf _

/-- The host's one-operand reduce with a minimum body over one axis, its initial value the +inf constant, at reduced
    index j: the same infimum (`h'` is the host's shape fact, `h` the lane form of the same fact, which names the
    index with the coordinate put back). -/
theorem hostMinReduce_single {s t u : Shape} {a : Fin s.rank} (x : FVec Ideal s .f32) (h' : s.ReducesTo [a] t)
    (h : s.Reduces [a] t) (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (fun k => x (h.lift j k)) = _
  rw [ofBits_inf_f32]
  exact fold_min_top_eq_iInf _

/-- A total sum passes through a re-laying of the array in another shape of as many entries. -/
theorem sum_shapeCast {s t : Shape} (x : s.Idx → EReal) (h : s.ShapeCasts t) :
    ∑ j : t.Idx, shapeCast t x h j = ∑ i : s.Idx, x i :=
  Equiv.sum_comp (Shape.reshapeEquiv h) x

end Cert.Lib.MinReduce

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«142534_j8615704396051_1_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.KI.TileD.lean ====
/-
  The tile's lane reductions, read at a row p of the tile.

  The hardest positive of the tile at row p is the supremum over the tile's 512 columns of the distance where the
  column is a positive and of -1 elsewhere; the running minimum of the hardest negative is the minimum of the row's old
  value and the infimum over the columns of the negatives' distance tile; each running flag is the maximum of the
  row's old value and the supremum over the columns of 1 where the mask holds and 0 elsewhere.
-/
import proofs.«142534_j8615704396051_1_alg».proof.Proof.Gen.KernelIdeal.Skeleton
import proofs.«142534_j8615704396051_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«142534_j8615704396051_1_alg».proof.Proof.LibMinReduce
import proofs.«142534_j8615704396051_1_alg».proof.Proof.LibMaxLane
import proofs.«142534_j8615704396051_1_alg».proof.Proof.KI.TileA

noncomputable section

namespace Cert.KernelIdeal.TileMath

open Cert.KernelIdeal Cert.KernelIdeal.Gen Idealize.ShloMosaic Idealize.ShloMosaic.ValueIdx

/-! ## Layout: the reduced row kept as a column, and the reduced index with the column put back -/

/-- A vector of 1024 entries kept as a column reads, at (p, 0), the vector at p. -/
theorem column_cast {α : Type} (v : S1024.Idx → α) (h : S1024.ShapeCasts S1024x1) (p : Fin 1024) :
    shapeCast S1024x1 v h (ix2 p (0 : Fin 1)) = v (ix1 p) :=
  shapeCast_apply v h _ _ (by
    rw [Shape.rowMajor_val_one, Shape.rowMajor_val_two]
    show p.val = p.val * 1 + 0
    omega)

/-- Row p with column q put back is the tile's index (p, q). -/
theorem lift_row (h : S1024x512.Reduces [1] S1024) (p : Fin 1024) (q : Fin 512) : h.lift (ix1 p) q = ix2 p q :=
  funext fun a => Fin.ext (by
    match a with
    | ⟨0, _⟩ => rfl
    | ⟨1, _⟩ => rfl)

/-- The lane maximum of a tile at row p: the supremum over the 512 columns. -/
theorem lane_max (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p) = ⨆ q : Fin 512, src (ix2 p q) := by
  refine (Cert.Lib.MaxLane.maxReduce_single src h hφ hacc (ix1 p)).trans ?_
  show (⨆ q : Fin 512, src (h.lift (ix1 p) q)) = _
  simp only [lift_row]

/-- The lane minimum of a tile at row p: the infimum over the 512 columns. -/
theorem lane_min (src : FVec Ideal S1024x512 .f32) (h : S1024x512.Reduces [1] S1024) (hφ : FKind.Formats .f32)
    (hacc : (0x7F800000#32 : BitVec 32) = FKind.minimumf.neutral .f32 hφ) (p : Fin 1024) :
    multiReduction (F := Ideal) .minimumf [1] S1024 src 0x7F800000#32 h hφ hacc (ix1 p) = ⨅ q : Fin 512, src (ix2 p q) := by
  refine (Cert.Lib.MinReduce.minReduce_single src h hφ hacc (ix1 p)).trans ?_
  show (⨅ q : Fin 512, src (h.lift (ix1 p) q)) = _
  simp only [lift_row]

/-! ## The tile's hardest positive -/

theorem pay9_apply (i : grid0.Coords) (x0 : Vec Ideal S1024x128 .f32) (x1 : Vec Ideal S512x128 .f32)
    (x2 : Vec Ideal S1024x1 .i32) (x3 : Vec Ideal S1x512 .i32) (p : Fin 1024) :
    k0_pay9 i x0 x1 x2 x3 (ix2 p (0 : Fin 1))
      = ⨆ q : Fin 512, (if k0_pay7 (F := Ideal) i x2 x3 (ix2 p q) = 1#1 then k0_pay5 x0 x1 (ix2 p q) else Cert.Spec.negOne) := by
  unfold k0_pay9
  show shapeCast S1024x1 _ _ (ix2 p (0 : Fin 1)) = _
  refine (column_cast _ _ p).trans ?_
  refine (lane_max _ _ _ _ p).trans ?_
  rfl

/-! ## The running minimum of the hardest negative -/

theorem pay12_apply (v37 : FVec Ideal S1024x512 .f32) (v53 : Vec Ideal S1024x1 .f32) (p : Fin 1024) :
    k0_pay12 v37 v53 (ix2 p (0 : Fin 1)) = min (v53 (ix2 p (0 : Fin 1))) (⨅ q : Fin 512, v37 (ix2 p q)) := by
  unfold k0_pay12
  show shapeCast S1024x1 _ _ (ix2 p (0 : Fin 1)) = _
  refine (congrFun (shapeCast_self _ _) (ix2 p (0 : Fin 1))).trans ?_
  refine (minimumf_apply _ _ _).trans ?_
  refine congrArg (min (v53 (ix2 p (0 : Fin 1)))) ?_
  refine (column_cast _ _ p).trans ?_
  exact lane_min v37 _ _ _ p

/-! ## The running flags -/

theorem pay13_apply (v30 : IVec S1024x512 1) (v58 : Vec Ideal S1024x1 .f32) (p : Fin 1024) :
    k0_pay13 (F := Ideal) v30 v58 (ix2 p (0 : Fin 1))
      = max (v58 (ix2 p (0 : Fin 1))) (⨆ q : Fin 512, if v30 (ix2 p q) = 1#1 then (1 : EReal) else 0) := by
  unfold k0_pay13
  show shapeCast S1024x1 _ _ (ix2 p (0 : Fin 1)) = _
  refine (congrFun (shapeCast_self _ _) (ix2 p (0 : Fin 1))).trans ?_
  refine (maximumf_apply _ _ _).trans ?_
  refine congrArg (max (v58 (ix2 p (0 : Fin 1)))) ?_
  refine (column_cast _ _ p).trans ?_
  refine (lane_max _ _ _ _ p).trans ?_
  exact iSup_congr fun q => sitofp_extui_bit (v30 (ix2 p q))

theorem pay14_apply (v31 : IVec S1024x512 1) (v63 : Vec Ideal S1024x1 .f32) (p : Fin 1024) :
    k0_pay14 (F := Ideal) v31 v63 (ix2 p (0 : Fin 1))
      = max (v63 (ix2 p (0 : Fin 1))) (⨆ q : Fin 512, if v31 (ix2 p q) = 1#1 then (1 : EReal) else 0) := by
  unfold k0_pay14
  show shapeCast S1024x1 _ _ (ix2 p (0 : Fin 1)) = _
  refine (congrFun (shapeCast_self _ _) (ix2 p (0 : Fin 1))).trans ?_
  refine (maximumf_apply _ _ _).trans ?_
  refine congrArg (max (v63 (ix2 p (0 : Fin 1)))) ?_
  refine (column_cast _ _ p).trans ?_
  refine (lane_max _ _ _ _ p).trans ?_
  exact iSup_congr fun q => sitofp_extui_bit (v31 (ix2 p q))

end Cert.KernelIdeal.TileMath

end
-- ==== Proof.KI.Accum.lean ====
/-
  The accumulation over the 16 column tiles, as lattice facts at the extended reals.

  A running maximum started from c and joined, tile after tile, with the tile's supremum ends at the maximum of c and
  the supremum over all tiles and all columns of a tile; the same for a running minimum. A supremum over 16 tiles of
  512 columns is the supremum over the 8192 columns. A start value that is itself one of the terms can be dropped.
  A flag that is the maximum of 0 and of terms that are 1 or 0 is above zero exactly when some term is 1.
-/
import proofs.«142534_j8615704396051_1_alg».proof.Proof.Spec

noncomputable section

namespace Cert.KernelIdeal.TileMath

/-! ## The running maximum and minimum over the column tiles -/

/-- The running maximum after the first J column tiles: it starts at c and each tile joins its supremum. -/
def accMax (c : EReal) (g : Fin 16 → Fin 512 → EReal) : ℕ → EReal
  | 0 => c
  | J + 1 => max (accMax c g J) (if h : J < 16 then ⨆ q : Fin 512, g ⟨J, h⟩ q else ⊥)

theorem accMax_zero (c : EReal) (g : Fin 16 → Fin 512 → EReal) : accMax c g 0 = c := rfl

theorem accMax_succ (c : EReal) (g : Fin 16 → Fin 512 → EReal) (J : ℕ) (h : J < 16) :
    accMax c g (J + 1) = max (accMax c g J) (⨆ q : Fin 512, g ⟨J, h⟩ q) := by
  show max (accMax c g J) (if h : J < 16 then ⨆ q : Fin 512, g ⟨J, h⟩ q else ⊥) = _
  rw [dif_pos h]

/-- After the first n tiles the running maximum is the maximum of c and the supremum over those tiles. -/
theorem accMax_prefix (c : EReal) (g : Fin 16 → Fin 512 → EReal) :
    ∀ n : ℕ, n ≤ 16 → accMax c g n = max c (⨆ J : Fin 16, ⨆ (_ : J.val < n), ⨆ q : Fin 512, g J q) := by
  intro n
  induction n with
  | zero =>
    intro _
    rw [accMax_zero]
    refine le_antisymm (le_max_left _ _) (max_le le_rfl ?_)
    exact iSup_le fun J => iSup_le fun hJ => absurd hJ (Nat.not_lt_zero _)
  | succ n ih =>
    intro hn
    have hlt : n < 16 := hn
    rw [accMax_succ c g n hlt, ih (Nat.le_of_lt hlt)]
    refine le_antisymm (max_le (max_le (le_max_left _ _) ?_) ?_) (max_le ?_ ?_)
    · refine le_trans ?_ (le_max_right _ _)
      exact iSup_le fun J => iSup_le fun hJ => le_iSup_of_le J (le_iSup_of_le (Nat.lt_succ_of_lt hJ) le_rfl)
    · refine le_trans ?_ (le_max_right _ _)
      exact le_iSup_of_le ⟨n, hlt⟩ (le_iSup_of_le (Nat.lt_succ_self n) le_rfl)
    · exact le_trans (le_max_left _ _) (le_max_left _ _)
    · refine iSup_le fun J => iSup_le fun hJ => ?_
      rcases Nat.lt_succ_iff_lt_or_eq.mp hJ with hJ' | hJ'
      · refine le_trans ?_ (le_max_left _ _)
        refine le_trans ?_ (le_max_right _ _)
        exact le_iSup_of_le J (le_iSup_of_le hJ' le_rfl)
      · have e : J = ⟨n, hlt⟩ := Fin.ext hJ'
        subst e
        exact le_max_right _ _

/-- After all 16 tiles: the maximum of c and the supremum over every tile and every column of it. -/
theorem accMax_all (c : EReal) (g : Fin 16 → Fin 512 → EReal) :
    accMax c g 16 = max c (⨆ J : Fin 16, ⨆ q : Fin 512, g J q) := by
  rw [accMax_prefix c g 16 le_rfl]
  refine congrArg (max c) (iSup_congr fun J => ?_)
  exact le_antisymm (iSup_le fun _ => le_rfl) (le_iSup_of_le J.isLt le_rfl)

/-- The running minimum after the first J column tiles: it starts at c and each tile meets its infimum. -/
def accMin (c : EReal) (g : Fin 16 → Fin 512 → EReal) : ℕ → EReal
  | 0 => c
  | J + 1 => min (accMin c g J) (if h : J < 16 then ⨅ q : Fin 512, g ⟨J, h⟩ q else ⊤)

theorem accMin_zero (c : EReal) (g : Fin 16 → Fin 512 → EReal) : accMin c g 0 = c := rfl

theorem accMin_succ (c : EReal) (g : Fin 16 → Fin 512 → EReal) (J : ℕ) (h : J < 16) :
    accMin c g (J + 1) = min (accMin c g J) (⨅ q : Fin 512, g ⟨J, h⟩ q) := by
  show min (accMin c g J) (if h : J < 16 then ⨅ q : Fin 512, g ⟨J, h⟩ q else ⊤) = _
  rw [dif_pos h]

/-- After the first n tiles the running minimum is the minimum of c and the infimum over those tiles. -/
theorem accMin_prefix (c : EReal) (g : Fin 16 → Fin 512 → EReal) :
    ∀ n : ℕ, n ≤ 16 → accMin c g n = min c (⨅ J : Fin 16, ⨅ (_ : J.val < n), ⨅ q : Fin 512, g J q) := by
  intro n
  induction n with
  | zero =>
    intro _
    rw [accMin_zero]
    refine le_antisymm (le_min le_rfl ?_) (min_le_left _ _)
    exact le_iInf fun J => le_iInf fun hJ => absurd hJ (Nat.not_lt_zero _)
  | succ n ih =>
    intro hn
    have hlt : n < 16 := hn
    rw [accMin_succ c g n hlt, ih (Nat.le_of_lt hlt)]
    refine le_antisymm (le_min ?_ ?_) (le_min (le_min (min_le_left _ _) ?_) ?_)
    · exact le_trans (min_le_left _ _) (min_le_left _ _)
    · refine le_iInf fun J => le_iInf fun hJ => ?_
      rcases Nat.lt_succ_iff_lt_or_eq.mp hJ with hJ' | hJ'
      · refine le_trans (min_le_left _ _) ?_
        refine le_trans (min_le_right _ _) ?_
        exact iInf_le_of_le J (iInf_le_of_le hJ' le_rfl)
      · have e : J = ⟨n, hlt⟩ := Fin.ext hJ'
        subst e
        exact min_le_right _ _
    · refine le_trans (min_le_right _ _) ?_
      exact le_iInf fun J => le_iInf fun hJ => iInf_le_of_le J (iInf_le_of_le (Nat.lt_succ_of_lt hJ) le_rfl)
    · refine le_trans (min_le_right _ _) ?_
      exact iInf_le_of_le ⟨n, hlt⟩ (iInf_le_of_le (Nat.lt_succ_self n) le_rfl)

/-- After all 16 tiles: the minimum of c and the infimum over every tile and every column of it. -/
theorem accMin_all (c : EReal) (g : Fin 16 → Fin 512 → EReal) :
    accMin c g 16 = min c (⨅ J : Fin 16, ⨅ q : Fin 512, g J q) := by
  rw [accMin_prefix c g 16 le_rfl]
  refine congrArg (min c) (iInf_congr fun J => ?_)
  exact le_antisymm (iInf_le_of_le J.isLt le_rfl) (le_iInf fun _ => le_rfl)

/-! ## 16 tiles of 512 columns are the 8192 columns -/

theorem tile_col_lt (J : Fin 16) (q : Fin 512) : J.val * 512 + q.val < 8192 := by
  have := J.isLt; have := q.isLt; omega

theorem iSup_tiles (h : Fin 8192 → EReal) :
    (⨆ J : Fin 16, ⨆ q : Fin 512, h ⟨J.val * 512 + q.val, tile_col_lt J q⟩) = ⨆ j : Fin 8192, h j := by
  refine le_antisymm (iSup_le fun J => iSup_le fun q => le_iSup h _) (iSup_le fun j => ?_)
  have hj := j.isLt
  refine le_iSup_of_le (⟨j.val / 512, by omega⟩ : Fin 16) (le_iSup_of_le (⟨j.val % 512, by omega⟩ : Fin 512) ?_)
  exact le_of_eq (congrArg h (Fin.ext (by show j.val = j.val / 512 * 512 + j.val % 512; omega)))

theorem iInf_tiles (h : Fin 8192 → EReal) :
    (⨅ J : Fin 16, ⨅ q : Fin 512, h ⟨J.val * 512 + q.val, tile_col_lt J q⟩) = ⨅ j : Fin 8192, h j := by
  refine le_antisymm (le_iInf fun j => ?_) (le_iInf fun J => le_iInf fun q => iInf_le h _)
  have hj := j.isLt
  refine iInf_le_of_le (⟨j.val / 512, by omega⟩ : Fin 16) (iInf_le_of_le (⟨j.val % 512, by omega⟩ : Fin 512) ?_)
  exact le_of_eq (congrArg h (Fin.ext (by show j.val / 512 * 512 + j.val % 512 = j.val; omega)))

/-! ## A start value that is one of the terms -/

theorem max_iSup_of_mem (h : Fin 8192 → EReal) (c : EReal) (j₀ : Fin 8192) (hc : h j₀ = c) :
    max c (⨆ j, h j) = ⨆ j, h j :=
  max_eq_right (hc ▸ le_iSup h j₀)

theorem min_iInf_of_mem (h : Fin 8192 → EReal) (c : EReal) (j₀ : Fin 8192) (hc : h j₀ = c) :
    min c (⨅ j, h j) = ⨅ j, h j :=
  min_eq_right (hc ▸ iInf_le h j₀)

/-! ## The flag -/

theorem flag_pos_iff (b : Fin 8192 → Prop) [DecidablePred b] :
    0 < max (0 : EReal) (⨆ j, if b j then (1 : EReal) else 0) ↔ ∃ j, b j := by
  constructor
  · intro hpos
    by_contra hne
    have hall : ∀ j, ¬ b j := fun j hj => hne ⟨j, hj⟩
    have e : (fun j => if b j then (1 : EReal) else 0) = fun _ => (0 : EReal) := funext fun j => if_neg (hall j)
    rw [e, iSup_const, max_self] at hpos
    exact lt_irrefl _ hpos
  · rintro ⟨j, hj⟩
    refine lt_max_of_lt_right (lt_of_lt_of_le zero_lt_one ?_)
    exact le_iSup_of_le j (by rw [if_pos hj])

end Cert.KernelIdeal.TileMath

end
-- ==== Proof.KI.AccumRows.lean ====
/-
  The accumulation along a row tile: from the running rows' recurrences to the specification's row term.

  The 128 grid points run row tile by row tile (point t is row tile t / 16, column tile t % 16). For a row p of row
  tile t / 16, i.e. the global row r = (t / 16) * 1024 + p, the four running rows after point t are the running
  maximum of the hardest positive's terms, the running minimum of the hardest negative's terms, and the running maxima
  of the two flags, over the column tiles 0 … t % 16. After the last column tile they are the specification's hp r and
  hn r and flags that are above zero exactly when r has a positive, a negative; the last step's two values are then
  the specification's row term and its 0/1 indicator.
-/
import proofs.«142534_j8615704396051_1_alg».proof.Proof.Gen.KernelIdeal.Skeleton
import proofs.«142534_j8615704396051_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«142534_j8615704396051_1_alg».proof.Proof.KI.TileA
import proofs.«142534_j8615704396051_1_alg».proof.Proof.KI.TileB
import proofs.«142534_j8615704396051_1_alg».proof.Proof.KI.TileC
import proofs.«142534_j8615704396051_1_alg».proof.Proof.KI.TileD
import proofs.«142534_j8615704396051_1_alg».proof.Proof.KI.Accum

noncomputable section

namespace Cert.KernelIdeal.TileMath

open Cert.KernelIdeal Cert.KernelIdeal.Gen Idealize.ShloMosaic Idealize.ShloMosaic.ValueIdx
open Classical

/-! ## The grid: 8 row tiles of 16 column tiles -/

theorem gridN : grid0.N = 128 := by decide

/-- Point t is row tile t / 16 and column tile t % 16. -/
theorem coords_facts : ∀ t : Fin grid0.N, (grid0.coords t 0).val = t.val / 16 ∧ (grid0.coords t 1).val = t.val % 16 := by
  decide +kernel

/-- The global row of row p of point t's row tile. -/
abbrev rowIdx (t : Fin grid0.N) (p : Fin 1024) : Fin 8192 :=
  ⟨(t.val / 16) * 1024 + p.val, by have h : t.val < 128 := lt_of_lt_of_eq t.isLt gridN; have := p.isLt; omega⟩

/-- The global column of column q of point t's column tile. -/
abbrev colIdx (t : Fin grid0.N) (q : Fin 512) : Fin 8192 :=
  ⟨(t.val % 16) * 512 + q.val, by have := q.isLt; omega⟩

/-- The point before t. -/
abbrev predPt (t : Fin grid0.N) : Fin grid0.N := ⟨t.val - 1, by have := t.isLt; omega⟩

/-- Point t's column tile. -/
abbrev tileOf (t : Fin grid0.N) : Fin 16 := ⟨t.val % 16, Nat.mod_lt _ (by decide)⟩

/-- A function of the 8192 columns, cut into 16 tiles of 512. -/
def tiles (h : Fin 8192 → EReal) : Fin 16 → Fin 512 → EReal :=
  fun J q => h ⟨J.val * 512 + q.val, tile_col_lt J q⟩

theorem tiles_at (h : Fin 8192 → EReal) (t : Fin grid0.N) (q : Fin 512) : tiles h (tileOf t) q = h (colIdx t q) := rfl

theorem iSup_tiles' (h : Fin 8192 → EReal) : (⨆ J : Fin 16, ⨆ q : Fin 512, tiles h J q) = ⨆ j : Fin 8192, h j :=
  iSup_tiles h

theorem iInf_tiles' (h : Fin 8192 → EReal) : (⨅ J : Fin 16, ⨅ q : Fin 512, tiles h J q) = ⨅ j : Fin 8192, h j :=
  iInf_tiles h

/-! ## A running maximum, a running minimum, along a row tile -/

theorem run_max (S : Fin grid0.N → Fin 1024 → EReal) (c : EReal) (g : Fin 8192 → Fin 16 → Fin 512 → EReal)
    (tv : Fin grid0.N → Fin 1024 → EReal)
    (hA : ∀ t p, t.val % 16 = 0 → S t p = max c (tv t p))
    (hB : ∀ t p, t.val % 16 ≠ 0 → S t p = max (S (predPt t) p) (tv t p))
    (htv : ∀ t p, tv t p = ⨆ q : Fin 512, g (rowIdx t p) (tileOf t) q) :
    ∀ n : ℕ, ∀ t : Fin grid0.N, t.val % 16 = n → ∀ p, S t p = accMax c (g (rowIdx t p)) (n + 1) := by
  intro n
  induction n with
  | zero =>
    intro t ht p
    have e : tileOf t = ⟨0, by decide⟩ := Fin.ext ht
    rw [hA t p ht, accMax_succ c _ 0 (by decide), accMax_zero, htv, e]
  | succ n ih =>
    intro t ht p
    have hlt : n + 1 < 16 := by have := Nat.mod_lt t.val (show 0 < 16 by decide); omega
    have hne : t.val % 16 ≠ 0 := by omega
    have hpred : (predPt t).val % 16 = n := by show (t.val - 1) % 16 = n; omega
    have hrow : rowIdx (predPt t) p = rowIdx t p :=
      Fin.ext (by show ((t.val - 1) / 16) * 1024 + p.val = (t.val / 16) * 1024 + p.val; omega)
    have e : tileOf t = ⟨n + 1, hlt⟩ := Fin.ext ht
    rw [hB t p hne, ih (predPt t) hpred p, hrow, accMax_succ c _ (n + 1) hlt, htv, e]

theorem run_min (S : Fin grid0.N → Fin 1024 → EReal) (c : EReal) (g : Fin 8192 → Fin 16 → Fin 512 → EReal)
    (tv : Fin grid0.N → Fin 1024 → EReal)
    (hA : ∀ t p, t.val % 16 = 0 → S t p = min c (tv t p))
    (hB : ∀ t p, t.val % 16 ≠ 0 → S t p = min (S (predPt t) p) (tv t p))
    (htv : ∀ t p, tv t p = ⨅ q : Fin 512, g (rowIdx t p) (tileOf t) q) :
    ∀ n : ℕ, ∀ t : Fin grid0.N, t.val % 16 = n → ∀ p, S t p = accMin c (g (rowIdx t p)) (n + 1) := by
  intro n
  induction n with
  | zero =>
    intro t ht p
    have e : tileOf t = ⟨0, by decide⟩ := Fin.ext ht
    rw [hA t p ht, accMin_succ c _ 0 (by decide), accMin_zero, htv, e]
  | succ n ih =>
    intro t ht p
    have hlt : n + 1 < 16 := by have := Nat.mod_lt t.val (show 0 < 16 by decide); omega
    have hne : t.val % 16 ≠ 0 := by omega
    have hpred : (predPt t).val % 16 = n := by show (t.val - 1) % 16 = n; omega
    have hrow : rowIdx (predPt t) p = rowIdx t p :=
      Fin.ext (by show ((t.val - 1) / 16) * 1024 + p.val = (t.val / 16) * 1024 + p.val; omega)
    have e : tileOf t = ⟨n + 1, hlt⟩ := Fin.ext ht
    rw [hB t p hne, ih (predPt t) hpred p, hrow, accMin_succ c _ (n + 1) hlt, htv, e]

/-! ## The terms of a row of the specification -/

section Rows

variable (x : Fin 8192 → Fin 128 → EReal) (lab : Fin 8192 → BitVec 32)

/-- The hardest positive's term of row r at column j, the hardest negative's, and the two flags' terms. -/
def hpTerm (r j : Fin 8192) : EReal := if Cert.Spec.pos lab r j then Cert.Spec.dist x r j else Cert.Spec.negOne
def hnTerm (r j : Fin 8192) : EReal := if Cert.Spec.neg lab r j then Cert.Spec.dist x r j else Cert.Spec.three
def posFlag (r j : Fin 8192) : EReal := if Cert.Spec.pos lab r j then (1 : EReal) else 0
def negFlag (r j : Fin 8192) : EReal := if Cert.Spec.neg lab r j then (1 : EReal) else 0

theorem hpTerm_self (r : Fin 8192) : hpTerm x lab r r = Cert.Spec.negOne := if_neg (fun h => h.2 rfl)
theorem hnTerm_self (r : Fin 8192) : hnTerm x lab r r = Cert.Spec.three := if_neg (fun h => h rfl)

variable (b0 : Fin grid0.N → Vec Ideal S1024x128 .f32) (b1 : Fin grid0.N → Vec Ideal S512x128 .f32)
  (b2 : Fin grid0.N → Vec Ideal S1024x1 .i32) (b3 : Fin grid0.N → Vec Ideal S1x512 .i32)

/-! ## A tile's values are the specification's terms -/

theorem tile_dist (h0 : ∀ t p k, b0 t (ix2 p k) = Cert.Spec.e x (rowIdx t p) k)
    (h1 : ∀ t q k, b1 t (ix2 q k) = Cert.Spec.e x (colIdx t q) k) (t : Fin grid0.N) (p : Fin 1024) (q : Fin 512) :
    k0_pay5 (b0 t) (b1 t) (ix2 p q) = Cert.Spec.dist x (rowIdx t p) (colIdx t q) := by
  rw [pay5_apply]
  show _ = Cert.Spec.one - ∑ k : Fin 128, Cert.Spec.e x (rowIdx t p) k * Cert.Spec.e x (colIdx t q) k
  exact congrArg (fun z => Cert.Spec.one - z) (Finset.sum_congr rfl fun k _ => by rw [h0, h1])

theorem tile_pos (h2 : ∀ t p, b2 t (ix2 p (0 : Fin 1)) = lab (rowIdx t p))
    (h3 : ∀ t q, b3 t (ix2 (0 : Fin 1) q) = lab (colIdx t q)) (t : Fin grid0.N) (p : Fin 1024) (q : Fin 512) :
    k0_pay7 (F := Ideal) (grid0.coords t) (b2 t) (b3 t) (ix2 p q) = 1#1 ↔ Cert.Spec.pos lab (rowIdx t p) (colIdx t q) := by
  rw [pay7_apply, h2, h3, (coords_facts t).1, (coords_facts t).2]
  refine and_congr Iff.rfl ⟨fun h e => h (congrArg Fin.val e), fun h e => h (Fin.ext e)⟩

theorem tile_neg (h2 : ∀ t p, b2 t (ix2 p (0 : Fin 1)) = lab (rowIdx t p))
    (h3 : ∀ t q, b3 t (ix2 (0 : Fin 1) q) = lab (colIdx t q)) (t : Fin grid0.N) (p : Fin 1024) (q : Fin 512) :
    k0_pay8 (F := Ideal) (b2 t) (b3 t) (ix2 p q) = 1#1 ↔ Cert.Spec.neg lab (rowIdx t p) (colIdx t q) := by
  rw [pay8_apply, h2, h3]
  exact Iff.rfl

/-! ## A tile's contributions to the four running rows -/

theorem tv_hp (h0 : ∀ t p k, b0 t (ix2 p k) = Cert.Spec.e x (rowIdx t p) k)
    (h1 : ∀ t q k, b1 t (ix2 q k) = Cert.Spec.e x (colIdx t q) k)
    (h2 : ∀ t p, b2 t (ix2 p (0 : Fin 1)) = lab (rowIdx t p))
    (h3 : ∀ t q, b3 t (ix2 (0 : Fin 1) q) = lab (colIdx t q)) (t : Fin grid0.N) (p : Fin 1024) :
    k0_pay9 (grid0.coords t) (b0 t) (b1 t) (b2 t) (b3 t) (ix2 p (0 : Fin 1))
      = ⨆ q : Fin 512, tiles (hpTerm x lab (rowIdx t p)) (tileOf t) q := by
  rw [pay9_apply]
  refine iSup_congr fun q => ?_
  rw [tiles_at, tile_dist x b0 b1 h0 h1 t p q]
  show _ = if Cert.Spec.pos lab (rowIdx t p) (colIdx t q) then Cert.Spec.dist x (rowIdx t p) (colIdx t q) else Cert.Spec.negOne
  by_cases hp : Cert.Spec.pos lab (rowIdx t p) (colIdx t q)
  · rw [if_pos hp, if_pos ((tile_pos lab b2 b3 h2 h3 t p q).mpr hp)]
  · rw [if_neg hp, if_neg (fun hh => hp ((tile_pos lab b2 b3 h2 h3 t p q).mp hh))]

theorem tv_hn (h0 : ∀ t p k, b0 t (ix2 p k) = Cert.Spec.e x (rowIdx t p) k)
    (h1 : ∀ t q k, b1 t (ix2 q k) = Cert.Spec.e x (colIdx t q) k)
    (h2 : ∀ t p, b2 t (ix2 p (0 : Fin 1)) = lab (rowIdx t p))
    (h3 : ∀ t q, b3 t (ix2 (0 : Fin 1) q) = lab (colIdx t q)) (t : Fin grid0.N) (p : Fin 1024) :
    (⨅ q : Fin 512, k0_pay10 (b0 t) (b1 t) (b2 t) (b3 t) (ix2 p q))
      = ⨅ q : Fin 512, tiles (hnTerm x lab (rowIdx t p)) (tileOf t) q := by
  refine iInf_congr fun q => ?_
  rw [pay10_apply, tiles_at, tile_dist x b0 b1 h0 h1 t p q]
  show _ = if Cert.Spec.neg lab (rowIdx t p) (colIdx t q) then Cert.Spec.dist x (rowIdx t p) (colIdx t q) else Cert.Spec.three
  by_cases hn : Cert.Spec.neg lab (rowIdx t p) (colIdx t q)
  · rw [if_pos hn, if_pos ((tile_neg lab b2 b3 h2 h3 t p q).mpr hn)]
  · rw [if_neg hn, if_neg (fun hh => hn ((tile_neg lab b2 b3 h2 h3 t p q).mp hh))]

theorem tv_pos (h2 : ∀ t p, b2 t (ix2 p (0 : Fin 1)) = lab (rowIdx t p))
    (h3 : ∀ t q, b3 t (ix2 (0 : Fin 1) q) = lab (colIdx t q)) (t : Fin grid0.N) (p : Fin 1024) :
    (⨆ q : Fin 512, if k0_pay7 (F := Ideal) (grid0.coords t) (b2 t) (b3 t) (ix2 p q) = 1#1 then (1 : EReal) else 0)
      = ⨆ q : Fin 512, tiles (posFlag lab (rowIdx t p)) (tileOf t) q := by
  refine iSup_congr fun q => ?_
  rw [tiles_at]
  show _ = if Cert.Spec.pos lab (rowIdx t p) (colIdx t q) then (1 : EReal) else 0
  by_cases hp : Cert.Spec.pos lab (rowIdx t p) (colIdx t q)
  · rw [if_pos hp, if_pos ((tile_pos lab b2 b3 h2 h3 t p q).mpr hp)]
  · rw [if_neg hp, if_neg (fun hh => hp ((tile_pos lab b2 b3 h2 h3 t p q).mp hh))]

theorem tv_neg (h2 : ∀ t p, b2 t (ix2 p (0 : Fin 1)) = lab (rowIdx t p))
    (h3 : ∀ t q, b3 t (ix2 (0 : Fin 1) q) = lab (colIdx t q)) (t : Fin grid0.N) (p : Fin 1024) :
    (⨆ q : Fin 512, if k0_pay8 (F := Ideal) (b2 t) (b3 t) (ix2 p q) = 1#1 then (1 : EReal) else 0)
      = ⨆ q : Fin 512, tiles (negFlag lab (rowIdx t p)) (tileOf t) q := by
  refine iSup_congr fun q => ?_
  rw [tiles_at]
  show _ = if Cert.Spec.neg lab (rowIdx t p) (colIdx t q) then (1 : EReal) else 0
  by_cases hn : Cert.Spec.neg lab (rowIdx t p) (colIdx t q)
  · rw [if_pos hn, if_pos ((tile_neg lab b2 b3 h2 h3 t p q).mpr hn)]
  · rw [if_neg hn, if_neg (fun hh => hn ((tile_neg lab b2 b3 h2 h3 t p q).mp hh))]

/-! ## The four running rows after each point -/

variable (S0 S1 S2 S3 : Fin grid0.N → Vec Ideal S1024x1 .f32)

theorem hp_run (h0 : ∀ t p k, b0 t (ix2 p k) = Cert.Spec.e x (rowIdx t p) k)
    (h1 : ∀ t q k, b1 t (ix2 q k) = Cert.Spec.e x (colIdx t q) k)
    (h2 : ∀ t p, b2 t (ix2 p (0 : Fin 1)) = lab (rowIdx t p))
    (h3 : ∀ t q, b3 t (ix2 (0 : Fin 1) q) = lab (colIdx t q))
    (rA0 : ∀ t, t.val % 16 = 0 → S0 t = k0_pay11 (F := Ideal) (k0_pay9 (F := Ideal) (grid0.coords t) (b0 t) (b1 t) (b2 t) (b3 t)) (k0_pay1 (F := Ideal)))
    (rB0 : ∀ t, t.val % 16 ≠ 0 → S0 t = k0_pay11 (F := Ideal) (k0_pay9 (F := Ideal) (grid0.coords t) (b0 t) (b1 t) (b2 t) (b3 t)) (S0 (predPt t)))
    (n : ℕ) (t : Fin grid0.N) (ht : t.val % 16 = n) (p : Fin 1024) :
    S0 t (ix2 p (0 : Fin 1)) = accMax Cert.Spec.negOne (tiles (hpTerm x lab (rowIdx t p))) (n + 1) :=
  run_max (fun t p => S0 t (ix2 p (0 : Fin 1))) Cert.Spec.negOne (fun r => tiles (hpTerm x lab r))
    (fun t p => k0_pay9 (grid0.coords t) (b0 t) (b1 t) (b2 t) (b3 t) (ix2 p (0 : Fin 1)))
    (fun t p ht => by
      show S0 t (ix2 p (0 : Fin 1)) = _
      rw [rA0 t ht, pay11_apply, pay1_apply])
    (fun t p ht => by
      show S0 t (ix2 p (0 : Fin 1)) = _
      rw [rB0 t ht, pay11_apply])
    (fun t p => tv_hp x lab b0 b1 b2 b3 h0 h1 h2 h3 t p) n t ht p

theorem hn_run (h0 : ∀ t p k, b0 t (ix2 p k) = Cert.Spec.e x (rowIdx t p) k)
    (h1 : ∀ t q k, b1 t (ix2 q k) = Cert.Spec.e x (colIdx t q) k)
    (h2 : ∀ t p, b2 t (ix2 p (0 : Fin 1)) = lab (rowIdx t p))
    (h3 : ∀ t q, b3 t (ix2 (0 : Fin 1) q) = lab (colIdx t q))
    (rA1 : ∀ t, t.val % 16 = 0 → S1 t = k0_pay12 (F := Ideal) (k0_pay10 (F := Ideal) (b0 t) (b1 t) (b2 t) (b3 t)) (k0_pay2 (F := Ideal)))
    (rB1 : ∀ t, t.val % 16 ≠ 0 → S1 t = k0_pay12 (F := Ideal) (k0_pay10 (F := Ideal) (b0 t) (b1 t) (b2 t) (b3 t)) (S1 (predPt t)))
    (n : ℕ) (t : Fin grid0.N) (ht : t.val % 16 = n) (p : Fin 1024) :
    S1 t (ix2 p (0 : Fin 1)) = accMin Cert.Spec.three (tiles (hnTerm x lab (rowIdx t p))) (n + 1) :=
  run_min (fun t p => S1 t (ix2 p (0 : Fin 1))) Cert.Spec.three (fun r => tiles (hnTerm x lab r))
    (fun t p => ⨅ q : Fin 512, k0_pay10 (b0 t) (b1 t) (b2 t) (b3 t) (ix2 p q))
    (fun t p ht => by
      show S1 t (ix2 p (0 : Fin 1)) = _
      rw [rA1 t ht, pay12_apply, pay2_apply])
    (fun t p ht => by
      show S1 t (ix2 p (0 : Fin 1)) = _
      rw [rB1 t ht, pay12_apply])
    (fun t p => tv_hn x lab b0 b1 b2 b3 h0 h1 h2 h3 t p) n t ht p

theorem pos_run (h2 : ∀ t p, b2 t (ix2 p (0 : Fin 1)) = lab (rowIdx t p))
    (h3 : ∀ t q, b3 t (ix2 (0 : Fin 1) q) = lab (colIdx t q))
    (rA2 : ∀ t, t.val % 16 = 0 → S2 t = k0_pay13 (F := Ideal) (k0_pay7 (F := Ideal) (grid0.coords t) (b2 t) (b3 t)) (k0_pay3 (F := Ideal)))
    (rB2 : ∀ t, t.val % 16 ≠ 0 → S2 t = k0_pay13 (F := Ideal) (k0_pay7 (F := Ideal) (grid0.coords t) (b2 t) (b3 t)) (S2 (predPt t)))
    (n : ℕ) (t : Fin grid0.N) (ht : t.val % 16 = n) (p : Fin 1024) :
    S2 t (ix2 p (0 : Fin 1)) = accMax (0 : EReal) (tiles (posFlag lab (rowIdx t p))) (n + 1) :=
  run_max (fun t p => S2 t (ix2 p (0 : Fin 1))) (0 : EReal) (fun r => tiles (posFlag lab r))
    (fun t p => ⨆ q : Fin 512, if k0_pay7 (F := Ideal) (grid0.coords t) (b2 t) (b3 t) (ix2 p q) = 1#1 then (1 : EReal) else 0)
    (fun t p ht => by
      show S2 t (ix2 p (0 : Fin 1)) = _
      rw [rA2 t ht, pay13_apply, pay3_apply])
    (fun t p ht => by
      show S2 t (ix2 p (0 : Fin 1)) = _
      rw [rB2 t ht, pay13_apply])
    (fun t p => tv_pos lab b2 b3 h2 h3 t p) n t ht p

theorem neg_run (h2 : ∀ t p, b2 t (ix2 p (0 : Fin 1)) = lab (rowIdx t p))
    (h3 : ∀ t q, b3 t (ix2 (0 : Fin 1) q) = lab (colIdx t q))
    (rA3 : ∀ t, t.val % 16 = 0 → S3 t = k0_pay14 (F := Ideal) (k0_pay8 (F := Ideal) (b2 t) (b3 t)) (k0_pay4 (F := Ideal)))
    (rB3 : ∀ t, t.val % 16 ≠ 0 → S3 t = k0_pay14 (F := Ideal) (k0_pay8 (F := Ideal) (b2 t) (b3 t)) (S3 (predPt t)))
    (n : ℕ) (t : Fin grid0.N) (ht : t.val % 16 = n) (p : Fin 1024) :
    S3 t (ix2 p (0 : Fin 1)) = accMax (0 : EReal) (tiles (negFlag lab (rowIdx t p))) (n + 1) :=
  run_max (fun t p => S3 t (ix2 p (0 : Fin 1))) (0 : EReal) (fun r => tiles (negFlag lab r))
    (fun t p => ⨆ q : Fin 512, if k0_pay8 (F := Ideal) (b2 t) (b3 t) (ix2 p q) = 1#1 then (1 : EReal) else 0)
    (fun t p ht => by
      show S3 t (ix2 p (0 : Fin 1)) = _
      rw [rA3 t ht, pay14_apply, pay4_apply])
    (fun t p ht => by
      show S3 t (ix2 p (0 : Fin 1)) = _
      rw [rB3 t ht, pay14_apply])
    (fun t p => tv_neg lab b2 b3 h2 h3 t p) n t ht p

/-! ## After the last column tile -/

/-- After the last column tile of a row tile the last step writes the specification's row term and indicator. -/
theorem rows_final (h0 : ∀ t p k, b0 t (ix2 p k) = Cert.Spec.e x (rowIdx t p) k)
    (h1 : ∀ t q k, b1 t (ix2 q k) = Cert.Spec.e x (colIdx t q) k)
    (h2 : ∀ t p, b2 t (ix2 p (0 : Fin 1)) = lab (rowIdx t p))
    (h3 : ∀ t q, b3 t (ix2 (0 : Fin 1) q) = lab (colIdx t q))
    (rA0 : ∀ t, t.val % 16 = 0 → S0 t = k0_pay11 (F := Ideal) (k0_pay9 (F := Ideal) (grid0.coords t) (b0 t) (b1 t) (b2 t) (b3 t)) (k0_pay1 (F := Ideal)))
    (rB0 : ∀ t, t.val % 16 ≠ 0 → S0 t = k0_pay11 (F := Ideal) (k0_pay9 (F := Ideal) (grid0.coords t) (b0 t) (b1 t) (b2 t) (b3 t)) (S0 (predPt t)))
    (rA1 : ∀ t, t.val % 16 = 0 → S1 t = k0_pay12 (F := Ideal) (k0_pay10 (F := Ideal) (b0 t) (b1 t) (b2 t) (b3 t)) (k0_pay2 (F := Ideal)))
    (rB1 : ∀ t, t.val % 16 ≠ 0 → S1 t = k0_pay12 (F := Ideal) (k0_pay10 (F := Ideal) (b0 t) (b1 t) (b2 t) (b3 t)) (S1 (predPt t)))
    (rA2 : ∀ t, t.val % 16 = 0 → S2 t = k0_pay13 (F := Ideal) (k0_pay7 (F := Ideal) (grid0.coords t) (b2 t) (b3 t)) (k0_pay3 (F := Ideal)))
    (rB2 : ∀ t, t.val % 16 ≠ 0 → S2 t = k0_pay13 (F := Ideal) (k0_pay7 (F := Ideal) (grid0.coords t) (b2 t) (b3 t)) (S2 (predPt t)))
    (rA3 : ∀ t, t.val % 16 = 0 → S3 t = k0_pay14 (F := Ideal) (k0_pay8 (F := Ideal) (b2 t) (b3 t)) (k0_pay4 (F := Ideal)))
    (rB3 : ∀ t, t.val % 16 ≠ 0 → S3 t = k0_pay14 (F := Ideal) (k0_pay8 (F := Ideal) (b2 t) (b3 t)) (S3 (predPt t))) :
    ∀ t : Fin grid0.N, t.val % 16 = 15 → ∀ p : Fin 1024,
      k0_pay16 (S2 t) (S3 t) (S0 t) (S1 t) (ix2 p (0 : Fin 1)) = Cert.Spec.row x lab (rowIdx t p)
      ∧ k0_pay17 (S2 t) (S3 t) (ix2 p (0 : Fin 1)) = if Cert.Spec.valid lab (rowIdx t p) then (1 : EReal) else 0 := by
  intro t ht p
  have r0 : S0 t (ix2 p (0 : Fin 1)) = accMax Cert.Spec.negOne (tiles (hpTerm x lab (rowIdx t p))) 16 :=
    hp_run x lab b0 b1 b2 b3 S0 h0 h1 h2 h3 rA0 rB0 15 t ht p
  have r1 : S1 t (ix2 p (0 : Fin 1)) = accMin Cert.Spec.three (tiles (hnTerm x lab (rowIdx t p))) 16 :=
    hn_run x lab b0 b1 b2 b3 S1 h0 h1 h2 h3 rA1 rB1 15 t ht p
  have r2 : S2 t (ix2 p (0 : Fin 1)) = accMax (0 : EReal) (tiles (posFlag lab (rowIdx t p))) 16 :=
    pos_run lab b2 b3 S2 h2 h3 rA2 rB2 15 t ht p
  have r3 : S3 t (ix2 p (0 : Fin 1)) = accMax (0 : EReal) (tiles (negFlag lab (rowIdx t p))) 16 :=
    neg_run lab b2 b3 S3 h2 h3 rA3 rB3 15 t ht p
  have e0 : S0 t (ix2 p (0 : Fin 1)) = Cert.Spec.hp x lab (rowIdx t p) := by
    rw [r0, accMax_all, iSup_tiles', max_iSup_of_mem _ _ (rowIdx t p) (hpTerm_self x lab _)]
    rfl
  have e1 : S1 t (ix2 p (0 : Fin 1)) = Cert.Spec.hn x lab (rowIdx t p) := by
    rw [r1, accMin_all, iInf_tiles', min_iInf_of_mem _ _ (rowIdx t p) (hnTerm_self x lab _)]
    rfl
  have e2 : 0 < S2 t (ix2 p (0 : Fin 1)) ↔ ∃ j, Cert.Spec.pos lab (rowIdx t p) j := by
    rw [r2, accMax_all, iSup_tiles']
    exact flag_pos_iff (fun j => Cert.Spec.pos lab (rowIdx t p) j)
  have e3 : 0 < S3 t (ix2 p (0 : Fin 1)) ↔ ∃ j, Cert.Spec.neg lab (rowIdx t p) j := by
    rw [r3, accMax_all, iSup_tiles']
    exact flag_pos_iff (fun j => Cert.Spec.neg lab (rowIdx t p) j)
  have hv : (0 < S2 t (ix2 p (0 : Fin 1)) ∧ 0 < S3 t (ix2 p (0 : Fin 1))) ↔ Cert.Spec.valid lab (rowIdx t p) :=
    and_congr e2 e3
  constructor
  · rw [pay16_apply, e0, e1]
    show _ = if Cert.Spec.valid lab (rowIdx t p)
      then max (Cert.Spec.hp x lab (rowIdx t p) - Cert.Spec.hn x lab (rowIdx t p) + Cert.Spec.margin) Cert.Spec.zero
      else Cert.Spec.zero
    by_cases hval : Cert.Spec.valid lab (rowIdx t p)
    · rw [if_pos hval, if_pos (hv.mpr hval)]
    · rw [if_neg hval, if_neg (fun hh => hval (hv.mp hh))]
  · rw [pay17_apply]
    by_cases hval : Cert.Spec.valid lab (rowIdx t p)
    · rw [if_pos hval, if_pos (hv.mpr hval)]
    · rw [if_neg hval, if_neg (fun hh => hval (hv.mp hh))]

end Rows

end Cert.KernelIdeal.TileMath

end
-- ==== Proof.RefSideA.lean ====
/-
  The reference, rows 0 to 11, read at an index: the normalised rows and the cosine distance.

  Row i of the input, divided by the larger of its norm and the small constant, is the specification's e i; the
  contraction of the normalised matrix with its transpose at (i, j) is the sum over k of e i k * e j k, and one minus
  it the distance.
-/
import proofs.«142534_j8615704396051_1_alg».proof.Proof.Gen.ReferenceIdeal.Read
import proofs.«142534_j8615704396051_1_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

/-- The input matrix and the labels, as functions of their coordinates. -/
abbrev X (x0 : (⟨S8192x128, .f32⟩ : BufTy).Contents (Elt Ideal)) : Fin 8192 → Fin 128 → EReal :=
  fun i k => x0 (ValueIdx.ix2 i k)
abbrev Lab (x1 : (⟨S8192, .i32⟩ : BufTy).Contents (Elt Ideal)) : Fin 8192 → BitVec 32 :=
  fun i => x1 (ValueIdx.ix1 i)

variable (x0 : (⟨S8192x128, .f32⟩ : BufTy).Contents (Elt Ideal))

/-- The sum of squares of row i. -/
theorem v1_apply (i : Fin 8192) : val_main_v1 (F := Ideal) x0 (ValueIdx.ix1 i) = Cert.Spec.sq (X x0) i := by
  rw [val_main_v1_apply]
  unfold Cert.Spec.sq Cert.Spec.zero
  refine congrArg₂ (· + ·) rfl (Finset.sum_congr rfl fun k _ => ?_)
  have hi : idx_main_v1 (ValueIdx.ix1 i) k = ValueIdx.ix2 i k := by
    funext a; match a with | ⟨0, _⟩ => rfl | ⟨1, _⟩ => rfl
  rw [val_main_v0_apply, hi]
  rfl

/-- The clamped norm of row i, in the one column of the 8192 by 1 array. -/
theorem v5_apply (i : Fin 8192) (c : Fin 1) :
    val_main_v5 (F := Ideal) x0 (ValueIdx.ix2 i c) = Cert.Spec.nrm (X x0) i := by
  rw [val_main_v5_apply, val_main_v3_apply, val_main_v2_apply, val_main_v4_apply]
  have hi : idx_main_v2 (ValueIdx.ix2 i c) = ValueIdx.ix1 i := by
    funext a; match a with | ⟨0, _⟩ => rfl
  rw [hi, v1_apply]
  rfl

/-- The normalised row. -/
theorem v7_apply (i : Fin 8192) (k : Fin 128) :
    val_main_v7 (F := Ideal) x0 (ValueIdx.ix2 i k) = Cert.Spec.e (X x0) i k := by
  rw [val_main_v7_apply, val_main_v6_apply]
  have hi : idx_main_v6 (ValueIdx.ix2 i k) = ValueIdx.ix2 i (0 : Fin 1) := by
    funext a; match a with | ⟨0, _⟩ => rfl | ⟨1, _⟩ => rfl
  rw [hi, v5_apply]
  rfl

/-- The cosine similarity of rows i and j. -/
theorem v9_apply (i j : Fin 8192) :
    val_main_v9 (F := Ideal) x0 (ValueIdx.ix2 i j) = Cert.Spec.sim (X x0) i j := by
  rw [val_main_v9_apply]
  unfold Cert.Spec.sim
  refine Finset.sum_congr rfl fun k _ => ?_
  have hl : lidx_main_v9 (ValueIdx.ix2 i j) k = ValueIdx.ix2 i k := by
    funext a; match a with | ⟨0, _⟩ => rfl | ⟨1, _⟩ => rfl
  have hr : idx_main_v8 (ridx_main_v9 (ValueIdx.ix2 i j) k) = ValueIdx.ix2 j k := by
    funext a; match a with | ⟨0, _⟩ => rfl | ⟨1, _⟩ => rfl
  rw [val_main_v8_apply, hl, hr, v7_apply, v7_apply]

/-- The cosine distance of rows i and j. -/
theorem v11_apply (i j : Fin 8192) :
    val_main_v11 (F := Ideal) x0 (ValueIdx.ix2 i j) = Cert.Spec.dist (X x0) i j := by
  rw [val_main_v11_apply, val_main_v10_apply, v9_apply]
  rfl

end Cert.ReferenceIdeal.RefSide

end
-- ==== Proof.KI.HostHead.lean ====
/-
  The host lines before the region: the normalised rows and the two layouts of the labels.

  The first ten lines normalise each row of the input exactly as the reference does, so the array the region reads
  holds the specification's e; the labels are re-laid as a column and as a row, entry for entry: position i of the
  vector is position (i, 0) of the column and position (0, i) of the row, all three at row-major offset i.
-/
import proofs.«142534_j8615704396051_1_alg».proof.Proof.KI.Runs
import proofs.«142534_j8615704396051_1_alg».proof.Proof.Spec
import proofs.«142534_j8615704396051_1_alg».proof.Proof.RefSideA
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostMath

open Cert.KernelIdeal Cert.KernelIdeal.Gen Cert.KernelIdeal.Hand
open Idealize.ShloMosaic Idealize.ShloMosaic.TcCoe Idealize.SL.Sem

/-- The vector of labels re-laid as a column: entry (i, 0) is entry i. -/
theorem reshape_col (y : IVec S8192 32) (i : Fin 8192) :
    shapeCast S8192x1 y shapeCasts_S8192_S8192x1 (ValueIdx.ix2 i (0 : Fin 1)) = y (ValueIdx.ix1 i) := by
  refine shapeCast_apply y _ _ (ValueIdx.ix1 i) ?_
  rw [Shape.rowMajor_val_one, Shape.rowMajor_val_two]
  show i.val = i.val * 1 + 0
  omega

/-- The vector of labels re-laid as a row: entry (0, j) is entry j. -/
theorem reshape_row (y : IVec S8192 32) (j : Fin 8192) :
    shapeCast S1x8192 y shapeCasts_S8192_S1x8192 (ValueIdx.ix2 (0 : Fin 1) j) = y (ValueIdx.ix1 j) := by
  refine shapeCast_apply y _ _ (ValueIdx.ix1 j) ?_
  rw [Shape.rowMajor_val_one, Shape.rowMajor_val_two]
  show j.val = 0 * 8192 + j.val
  omega

variable (m : (ℓ : Loc nD τ sig) → Buf (Elt Ideal) ℓ) (c : Dev nD)

/-- The launched input matrix and labels of core c, by coordinates. -/
abbrev X : Fin 8192 → Fin 128 → EReal :=
  fun i k => (m ((c : Thread nD τ).loc main_arg0) : (⟨S8192x128, .f32⟩ : BufTy).Contents (Elt Ideal)) (ValueIdx.ix2 i k)
abbrev Lab : Fin 8192 → BitVec 32 :=
  fun i => (m ((c : Thread nD τ).loc main_arg1) : (⟨S8192, .i32⟩ : BufTy).Contents (Elt Ideal)) (ValueIdx.ix1 i)

/-- The array of normalised rows the region reads. -/
theorem V_main_v7 (i : Fin 8192) (k : Fin 128) :
    (V m c main_v7 : (⟨S8192x128, .f32⟩ : BufTy).Contents (Elt Ideal)) (ValueIdx.ix2 i k) = Cert.Spec.e (X m c) i k := by
  have e : (V m c main_v7 : (⟨S8192x128, .f32⟩ : BufTy).Contents (Elt Ideal))
      = Cert.ReferenceIdeal.Read.val_main_v7 (F := Ideal) (m ((c : Thread nD τ).loc main_arg0)) := by
    show StableHlo.after (hostOps0 (F := Ideal)) (fun b => m (c, b)) (Proc.devRef .tc main_v7) = _
    after_results
    all_goals rfl
  rw [e]
  exact Cert.ReferenceIdeal.RefSide.v7_apply _ i k

/-- The labels as a column. -/
theorem V_main_v8 (i : Fin 8192) :
    (V m c main_v8 : (⟨S8192x1, .i32⟩ : BufTy).Contents (Elt Ideal)) (ValueIdx.ix2 i (0 : Fin 1)) = Lab m c i := by
  have e : (V m c main_v8 : (⟨S8192x1, .i32⟩ : BufTy).Contents (Elt Ideal))
      = shapeCast S8192x1 (m ((c : Thread nD τ).loc main_arg1) : IVec S8192 32) shapeCasts_S8192_S8192x1 := by
    show StableHlo.after (hostOps0 (F := Ideal)) (fun b => m (c, b)) (Proc.devRef .tc main_v8) = _
    after_results
    all_goals rfl
  rw [e]
  exact reshape_col _ i

/-- The labels as a row. -/
theorem V_main_v9 (j : Fin 8192) :
    (V m c main_v9 : (⟨S1x8192, .i32⟩ : BufTy).Contents (Elt Ideal)) (ValueIdx.ix2 (0 : Fin 1) j) = Lab m c j := by
  have e : (V m c main_v9 : (⟨S1x8192, .i32⟩ : BufTy).Contents (Elt Ideal))
      = shapeCast S1x8192 (m ((c : Thread nD τ).loc main_arg1) : IVec S8192 32) shapeCasts_S8192_S1x8192 := by
    show StableHlo.after (hostOps0 (F := Ideal)) (fun b => m (c, b)) (Proc.devRef .tc main_v9) = _
    after_results
    all_goals rfl
  rw [e]
  exact reshape_row _ j

end Cert.KernelIdeal.HostMath

end
-- ==== Proof.KI.Blocks.lean ====
/-
  The four input windows' blocks, read at an index.

  The grid has 8 row tiles and 16 column tiles; point t is row tile t / 16 and column tile t % 16. A block's coordinate
  on an axis is the block index times the block's extent plus the coordinate inside the block. So the first window's
  block at t holds rows (t / 16) * 1024 + p of the normalised matrix, the second rows (t % 16) * 512 + q, and the two
  label windows the labels of the same rows.
-/
import proofs.«142534_j8615704396051_1_alg».proof.Proof.KI.HostHead

set_option maxRecDepth 16384

noncomputable section

namespace Cert.KernelIdeal.HostMath

open Cert.KernelIdeal Cert.KernelIdeal.Gen Cert.KernelIdeal.Hand
open Idealize.ShloMosaic Idealize.ShloMosaic.TcCoe Idealize.SL.Sem

/-- The windows' block indices at every grid point: the row tile, the column tile, or 0. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-- The grid has 128 points. -/
theorem t_lt (t : Fin cfg0.N) : t.val < 128 := lt_of_lt_of_eq t.isLt N_0

/-- The row a row-tile block's inner row p lies on, and the row a column-tile block's inner row q lies on. -/
theorem rowTile_lt (t : Fin cfg0.N) (p : Fin 1024) : (t.val / 16) * 1024 + p.val < 8192 := by
  have := t_lt t; have := p.isLt; omega
theorem colTile_lt (t : Fin cfg0.N) (q : Fin 512) : (t.val % 16) * 512 + q.val < 8192 := by
  have := q.isLt; omega

variable (m : (ℓ : Loc nD τ sig) → Buf (Elt Ideal) ℓ) (c : Dev nD)

/-- The first window: the row tile's rows of the normalised matrix. -/
theorem blk0 (t : Fin cfg0.N) (p : Fin 1024) (k : Fin 128) :
    (iblk m c 0 t : S1024x128.Idx → EReal) (ValueIdx.ix2 p k)
      = Cert.Spec.e (X m c) ⟨(t.val / 16) * 1024 + p.val, rowTile_lt t p⟩ k := by
  obtain ⟨e0, e1, -⟩ := idx_facts t
  unfold iblk
  show (V m c main_v7 : (⟨S8192x128, .f32⟩ : BufTy).Contents (Elt Ideal))
      (((cfg0.win 0).blk t).view.emb (ValueIdx.ix2 p k)) = _
  have h : ((cfg0.win 0).blk t).view.emb (ValueIdx.ix2 p k)
      = ValueIdx.ix2 (⟨(t.val / 16) * 1024 + p.val, rowTile_lt t p⟩ : Fin 8192) k := by
    funext a; apply Fin.ext
    match a with
    | ⟨0, _⟩ => show win0_0.index t (0 : Fin 2) * 1024 + 1 * p.val = (t.val / 16) * 1024 + p.val; omega
    | ⟨1, _⟩ => show win0_0.index t (1 : Fin 2) * 128 + 1 * k.val = k.val; omega
  rw [h]
  exact V_main_v7 m c _ k

/-- The second window: the column tile's rows of the normalised matrix. -/
theorem blk1 (t : Fin cfg0.N) (q : Fin 512) (k : Fin 128) :
    (iblk m c 1 t : S512x128.Idx → EReal) (ValueIdx.ix2 q k)
      = Cert.Spec.e (X m c) ⟨(t.val % 16) * 512 + q.val, colTile_lt t q⟩ k := by
  obtain ⟨-, -, e0, e1, -⟩ := idx_facts t
  unfold iblk
  show (V m c main_v7 : (⟨S8192x128, .f32⟩ : BufTy).Contents (Elt Ideal))
      (((cfg0.win 1).blk t).view.emb (ValueIdx.ix2 q k)) = _
  have h : ((cfg0.win 1).blk t).view.emb (ValueIdx.ix2 q k)
      = ValueIdx.ix2 (⟨(t.val % 16) * 512 + q.val, colTile_lt t q⟩ : Fin 8192) k := by
    funext a; apply Fin.ext
    match a with
    | ⟨0, _⟩ => show win0_1.index t (0 : Fin 2) * 512 + 1 * q.val = (t.val % 16) * 512 + q.val; omega
    | ⟨1, _⟩ => show win0_1.index t (1 : Fin 2) * 128 + 1 * k.val = k.val; omega
  rw [h]
  exact V_main_v7 m c _ k

/-- The third window: the labels of the row tile's rows, as a column. -/
theorem blk2 (t : Fin cfg0.N) (p : Fin 1024) :
    (iblk m c 2 t : S1024x1.Idx → BitVec 32) (ValueIdx.ix2 p (0 : Fin 1))
      = Lab m c ⟨(t.val / 16) * 1024 + p.val, rowTile_lt t p⟩ := by
  obtain ⟨-, -, -, -, e0, e1, -⟩ := idx_facts t
  unfold iblk
  show (V m c main_v8 : (⟨S8192x1, .i32⟩ : BufTy).Contents (Elt Ideal))
      (((cfg0.win 2).blk t).view.emb (ValueIdx.ix2 p (0 : Fin 1))) = _
  have h : ((cfg0.win 2).blk t).view.emb (ValueIdx.ix2 p (0 : Fin 1))
      = ValueIdx.ix2 (⟨(t.val / 16) * 1024 + p.val, rowTile_lt t p⟩ : Fin 8192) (0 : Fin 1) := by
    funext a; apply Fin.ext
    match a with
    | ⟨0, _⟩ => show win0_2.index t (0 : Fin 2) * 1024 + 1 * p.val = (t.val / 16) * 1024 + p.val; omega
    | ⟨1, _⟩ => show win0_2.index t (1 : Fin 2) * 1 + 1 * 0 = 0; omega
  rw [h]
  exact V_main_v8 m c _

/-- The fourth window: the labels of the column tile's rows, as a row. -/
theorem blk3 (t : Fin cfg0.N) (q : Fin 512) :
    (iblk m c 3 t : S1x512.Idx → BitVec 32) (ValueIdx.ix2 (0 : Fin 1) q)
      = Lab m c ⟨(t.val % 16) * 512 + q.val, colTile_lt t q⟩ := by
  obtain ⟨-, -, -, -, -, -, e0, e1, -⟩ := idx_facts t
  unfold iblk
  show (V m c main_v9 : (⟨S1x8192, .i32⟩ : BufTy).Contents (Elt Ideal))
      (((cfg0.win 3).blk t).view.emb (ValueIdx.ix2 (0 : Fin 1) q)) = _
  have h : ((cfg0.win 3).blk t).view.emb (ValueIdx.ix2 (0 : Fin 1) q)
      = ValueIdx.ix2 (0 : Fin 1) (⟨(t.val % 16) * 512 + q.val, colTile_lt t q⟩ : Fin 8192) := by
    funext a; apply Fin.ext
    match a with
    | ⟨0, _⟩ => show win0_3.index t (0 : Fin 2) * 1 + 1 * 0 = 0; omega
    | ⟨1, _⟩ => show win0_3.index t (1 : Fin 2) * 512 + 1 * q.val = (t.val % 16) * 512 + q.val; omega
  rw [h]
  exact V_main_v9 m c _

end Cert.KernelIdeal.HostMath

end
-- ==== Proof.KI.Final.lean ====
/-
  From the result blocks to the two result arrays.

  Each result array is a column of 8192 entries, written back one block of 1024 rows at a time, at the last column tile
  of each of the 8 row tiles. If the block written at the last column tile of row tile r holds, on its row p, the value
  g (r * 1024 + p) of one column g, then every flushing point writes back its block of g; the 8 blocks tile the column
  (row i lies in the block of point 16 * (i / 1024) + 15), so after the run the array holds g.
-/
import proofs.«142534_j8615704396051_1_alg».proof.Proof.KI.Frame
import proofs.«142534_j8615704396051_1_alg».proof.Proof.KI.Blocks
import Idealize.ShloMosaic.Lib.Pipeline.Value

set_option maxRecDepth 16384

noncomputable section

namespace Cert.KernelIdeal.HostMath

open Cert.KernelIdeal Cert.KernelIdeal.Gen Cert.KernelIdeal.Hand
open Idealize.ShloMosaic Idealize.ShloMosaic.TcCoe Idealize.SL.Sem
open Idealize.ShloMosaic.Pipeline (Dat Cfg Window)

/-- A column of 8192 entries as an array of 8192 rows and one column. -/
abbrev col (g : Fin 8192 → EReal) : S8192x1.Idx → EReal := fun i => g ⟨(i 0).val, (i 0).isLt⟩

variable (m : (ℓ : Loc nD τ sig) → Buf (Elt Ideal) ℓ) (c : Dev nD)

/-- An index of result array 1 is in point t's block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v10_0).slice (win0_4.rect t)).set ↔ _
  rw [View.set_slice_whole, Rect.mem_set_unit]
  exact Iff.rfl

/-- Every row of result array 1 lies in the block of the last column tile of its row tile, which is written back. -/
theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨tv, htv⟩ : ∃ tv : Nat, tv = 16 * ((i 0).val / 1024) + 15 := ⟨_, rfl⟩
  have hlt : tv < cfg0.N := lt_of_lt_of_eq (by omega : tv < 128) N_0.symm
  have e := idx_facts ⟨tv, hlt⟩
  have e0 : win0_4.index ⟨tv, hlt⟩ (0 : Fin 2) = tv / 16 := e.2.2.2.2.2.2.2.2.1
  have e1 : win0_4.index ⟨tv, hlt⟩ (1 : Fin 2) = 0 := e.2.2.2.2.2.2.2.2.2.1
  refine ⟨⟨tv, hlt⟩, (flush0_4 ⟨tv, hlt⟩).2 (by show tv % 16 = 15; omega), ?_⟩
  rw [mem_blk4]
  intro a
  match a with
  | ⟨0, _⟩ =>
    show win0_4.index ⟨tv, hlt⟩ (0 : Fin 2) * 1024 ≤ (i 0).val ∧ (i 0).val < win0_4.index ⟨tv, hlt⟩ (0 : Fin 2) * 1024 + 1024
    omega
  | ⟨1, _⟩ =>
    show win0_4.index ⟨tv, hlt⟩ (1 : Fin 2) * 1 ≤ (i 1).val ∧ (i 1).val < win0_4.index ⟨tv, hlt⟩ (1 : Fin 2) * 1 + 1
    omega

/-- What a flushing point writes back into result array 1 is its block of the column g, when the block the last
    column tile leaves holds g on the row tile's rows. -/
theorem flushed4_eq (g : Fin 8192 → EReal)
    (hg : ∀ (t : Fin cfg0.N), t.val % 16 = 15 → ∀ p : Fin 1024,
      ((outsAt0 m c t.val t.isLt).1 : S1024x1.Idx → EReal) (ValueIdx.ix2 p (0 : Fin 1)) = g ⟨(t.val / 16) * 1024 + p.val, rowTile_lt t p⟩)
    (t : Fin cfg0.N) (hf : (cfg0.win 4).flush t = true) :
    (dats m 0 c).flushed 4 t = ((cfg0.win 4).blk t).view.read (Elt Ideal) (col g) := by
  have h15 : t.val % 16 = 15 := (flush0_4 t).1 hf
  have e := idx_facts t
  have e0 : win0_4.index t (0 : Fin 2) = t.val / 16 := e.2.2.2.2.2.2.2.2.1
  show (cfg0.win 4).cut (grid0.coords t) ((dats m 0 c).after 4 t) = _
  rw [after0_4]
  funext j
  show ((outsAt0 m c t.val t.isLt).1 : S1024x1.Idx → EReal) j = col g (((cfg0.win 4).blk t).view.emb j)
  have hj : (j : S1024x1.Idx) = ValueIdx.ix2 (j 0 : Fin 1024) (0 : Fin 1) := by
    funext a
    match a with
    | ⟨0, _⟩ => rfl
    | ⟨1, _⟩ => exact Subsingleton.elim (α := Fin 1) _ _
  have hl : ((outsAt0 m c t.val t.isLt).1 : S1024x1.Idx → EReal) j
      = g ⟨(t.val / 16) * 1024 + (j 0).val, rowTile_lt t (j 0)⟩ :=
    (congrArg (fun z : S1024x1.Idx => ((outsAt0 m c t.val t.isLt).1 : S1024x1.Idx → EReal) z) hj).trans (hg t h15 (j 0))
  have hr : col g (((cfg0.win 4).blk t).view.emb j) = g ⟨(t.val / 16) * 1024 + (j 0).val, rowTile_lt t (j 0)⟩ := by
    refine congrArg g (Fin.ext ?_)
    show win0_4.index t (0 : Fin 2) * 1024 + 1 * (j 0).val = (t.val / 16) * 1024 + (j 0).val
    omega
  exact hl.trans hr.symm

/-- Result array 1 after the run, row by row. -/
theorem final4_of (g : Fin 8192 → EReal)
    (hg : ∀ (t : Fin cfg0.N), t.val % 16 = 15 → ∀ p : Fin 1024,
      ((outsAt0 m c t.val t.isLt).1 : S1024x1.Idx → EReal) (ValueIdx.ix2 p (0 : Fin 1)) = g ⟨(t.val / 16) * 1024 + p.val, rowTile_lt t p⟩)
    (i : Fin 8192) :
    ((dats m 0 c).arrAt 4 cfg0.N : S8192x1.Idx → EReal) (ValueIdx.ix2 i (0 : Fin 1)) = g i :=
  congrFun ((dats m 0 c).arrAt_eq_of_cover 4 (col g) (fun t hf => flushed4_eq m c g hg t hf) cover4) (ValueIdx.ix2 i (0 : Fin 1))

/-- An index of result array 2 is in point t's block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v10_1).slice (win0_5.rect t)).set ↔ _
  rw [View.set_slice_whole, Rect.mem_set_unit]
  exact Iff.rfl

/-- Every row of result array 2 lies in the block of the last column tile of its row tile, which is written back. -/
theorem cover5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨tv, htv⟩ : ∃ tv : Nat, tv = 16 * ((i 0).val / 1024) + 15 := ⟨_, rfl⟩
  have hlt : tv < cfg0.N := lt_of_lt_of_eq (by omega : tv < 128) N_0.symm
  have e := idx_facts ⟨tv, hlt⟩
  have e0 : win0_5.index ⟨tv, hlt⟩ (0 : Fin 2) = tv / 16 := e.2.2.2.2.2.2.2.2.2.2.1
  have e1 : win0_5.index ⟨tv, hlt⟩ (1 : Fin 2) = 0 := e.2.2.2.2.2.2.2.2.2.2.2
  refine ⟨⟨tv, hlt⟩, (flush0_5 ⟨tv, hlt⟩).2 (by show tv % 16 = 15; omega), ?_⟩
  rw [mem_blk5]
  intro a
  match a with
  | ⟨0, _⟩ =>
    show win0_5.index ⟨tv, hlt⟩ (0 : Fin 2) * 1024 ≤ (i 0).val ∧ (i 0).val < win0_5.index ⟨tv, hlt⟩ (0 : Fin 2) * 1024 + 1024
    omega
  | ⟨1, _⟩ =>
    show win0_5.index ⟨tv, hlt⟩ (1 : Fin 2) * 1 ≤ (i 1).val ∧ (i 1).val < win0_5.index ⟨tv, hlt⟩ (1 : Fin 2) * 1 + 1
    omega

/-- What a flushing point writes back into result array 2 is its block of the column g, when the block the last
    column tile leaves holds g on the row tile's rows. -/
theorem flushed5_eq (g : Fin 8192 → EReal)
    (hg : ∀ (t : Fin cfg0.N), t.val % 16 = 15 → ∀ p : Fin 1024,
      ((outsAt0 m c t.val t.isLt).2.1 : S1024x1.Idx → EReal) (ValueIdx.ix2 p (0 : Fin 1)) = g ⟨(t.val / 16) * 1024 + p.val, rowTile_lt t p⟩)
    (t : Fin cfg0.N) (hf : (cfg0.win 5).flush t = true) :
    (dats m 0 c).flushed 5 t = ((cfg0.win 5).blk t).view.read (Elt Ideal) (col g) := by
  have h15 : t.val % 16 = 15 := (flush0_5 t).1 hf
  have e := idx_facts t
  have e0 : win0_5.index t (0 : Fin 2) = t.val / 16 := e.2.2.2.2.2.2.2.2.2.2.1
  show (cfg0.win 5).cut (grid0.coords t) ((dats m 0 c).after 5 t) = _
  rw [after0_5]
  funext j
  show ((outsAt0 m c t.val t.isLt).2.1 : S1024x1.Idx → EReal) j = col g (((cfg0.win 5).blk t).view.emb j)
  have hj : (j : S1024x1.Idx) = ValueIdx.ix2 (j 0 : Fin 1024) (0 : Fin 1) := by
    funext a
    match a with
    | ⟨0, _⟩ => rfl
    | ⟨1, _⟩ => exact Subsingleton.elim (α := Fin 1) _ _
  have hl : ((outsAt0 m c t.val t.isLt).2.1 : S1024x1.Idx → EReal) j
      = g ⟨(t.val / 16) * 1024 + (j 0).val, rowTile_lt t (j 0)⟩ :=
    (congrArg (fun z : S1024x1.Idx => ((outsAt0 m c t.val t.isLt).2.1 : S1024x1.Idx → EReal) z) hj).trans (hg t h15 (j 0))
  have hr : col g (((cfg0.win 5).blk t).view.emb j) = g ⟨(t.val / 16) * 1024 + (j 0).val, rowTile_lt t (j 0)⟩ := by
    refine congrArg g (Fin.ext ?_)
    show win0_5.index t (0 : Fin 2) * 1024 + 1 * (j 0).val = (t.val / 16) * 1024 + (j 0).val
    omega
  exact hl.trans hr.symm

/-- Result array 2 after the run, row by row. -/
theorem final5_of (g : Fin 8192 → EReal)
    (hg : ∀ (t : Fin cfg0.N), t.val % 16 = 15 → ∀ p : Fin 1024,
      ((outsAt0 m c t.val t.isLt).2.1 : S1024x1.Idx → EReal) (ValueIdx.ix2 p (0 : Fin 1)) = g ⟨(t.val / 16) * 1024 + p.val, rowTile_lt t p⟩)
    (i : Fin 8192) :
    ((dats m 0 c).arrAt 5 cfg0.N : S8192x1.Idx → EReal) (ValueIdx.ix2 i (0 : Fin 1)) = g i :=
  congrFun ((dats m 0 c).arrAt_eq_of_cover 5 (col g) (fun t hf => flushed5_eq m c g hg t hf) cover5) (ValueIdx.ix2 i (0 : Fin 1))

/-- The first result array after the run holds each row's hinge term. -/
theorem final4
    (hrow : ∀ (t : Fin cfg0.N), t.val % 16 = 15 → ∀ p : Fin 1024,
      ((outsAt0 m c t.val t.isLt).1 : S1024x1.Idx → EReal) (ValueIdx.ix2 p (0 : Fin 1))
        = Cert.Spec.row (X m c) (Lab m c) ⟨(t.val / 16) * 1024 + p.val, rowTile_lt t p⟩) :
    ∀ i : Fin 8192, ((dats m 0 c).arrAt 4 cfg0.N : S8192x1.Idx → EReal) (ValueIdx.ix2 i (0 : Fin 1))
      = Cert.Spec.row (X m c) (Lab m c) i :=
  final4_of m c (Cert.Spec.row (X m c) (Lab m c)) hrow

/-- The second result array after the run holds 1 on the rows that count and 0 elsewhere. -/
theorem final5 [DecidablePred (Cert.Spec.valid (Lab m c))]
    (hval : ∀ (t : Fin cfg0.N), t.val % 16 = 15 → ∀ p : Fin 1024,
      ((outsAt0 m c t.val t.isLt).2.1 : S1024x1.Idx → EReal) (ValueIdx.ix2 p (0 : Fin 1))
        = if Cert.Spec.valid (Lab m c) ⟨(t.val / 16) * 1024 + p.val, rowTile_lt t p⟩ then (1 : EReal) else 0) :
    ∀ i : Fin 8192, ((dats m 0 c).arrAt 5 cfg0.N : S8192x1.Idx → EReal) (ValueIdx.ix2 i (0 : Fin 1))
      = if Cert.Spec.valid (Lab m c) i then (1 : EReal) else 0 :=
  final5_of m c (fun i => if Cert.Spec.valid (Lab m c) i then (1 : EReal) else 0) hval

end Cert.KernelIdeal.HostMath

end
-- ==== Proof.KI.HostTail.lean ====
/-
  The host lines after the region: the two column sums and their quotient.

  Each of the two result arrays is a column of 8192 entries. Its float sum over both axes, started from 0, is 0 plus the
  sum of the entries; the final value is the first sum divided by the larger of the second sum and 1.
-/
import proofs.«142534_j8615704396051_1_alg».proof.Proof.KI.Runs
import proofs.«142534_j8615704396051_1_alg».proof.Proof.Spec
import Idealize.ShloMosaic.Lib.ValueIdx
import Idealize.ShloMosaic.Lib.StableHlo.Run
import Idealize.ShloMosaic.PureOps.Ideal.Laws

noncomputable section

namespace Cert.KernelIdeal.HostMath

open Cert.KernelIdeal Cert.KernelIdeal.Gen Cert.KernelIdeal.Hand
open Idealize.ShloMosaic Idealize.ShloMosaic.TcCoe Idealize.SL.Sem

/-- The float sum of a column over both of its axes, from 0: 0 plus the sum of its 8192 entries. -/
theorem hostSum_col (y : FVec Ideal S8192x1 .f32) (j : S_.Idx) :
    Host.reduceAdd (F := Ideal) y (constant (F := Ideal) S_ .f32 0x00000000#32) reducesTo_S8192x1_S_d0_1 h_S_ j
      = Cert.Spec.zero + ∑ i : Fin 8192, y (ValueIdx.ix2 i (0 : Fin 1)) := by
  simp only [Host.reduceAdd, Ideal.hostReduceAdd_def]
  rw [Ideal.hostReduceAdd_total reducesTo_S8192x1_S_d0_1 (fun b => b.elim0) y _ j, ValueIdx.sum_idx2]
  refine congrArg₂ (· + ·) rfl (Finset.sum_congr rfl fun i _ => ?_)
  exact Fin.sum_univ_one _

/-- The two result columns, as a valuation holds them. -/
abbrev out4 (W : Valuation τ sig (Elt Ideal)) : FVec Ideal S8192x1 .f32 := W (Proc.devRef .tc main_v10_0)
abbrev out5 (W : Valuation τ sig (Elt Ideal)) : FVec Ideal S8192x1 .f32 := W (Proc.devRef .tc main_v10_1)

/-- After the host lines that follow the region, from any contents: the last buffer holds the sum of the first column
    divided by the larger of the sum of the second and 1. -/
theorem tail_result (W : Valuation τ sig (Elt Ideal)) :
    (StableHlo.after (List.flatten [hostOps1 (F := Ideal)]) W (Proc.devRef .tc main_v14) : (⟨S_, .f32⟩ : BufTy).Contents (Elt Ideal))
      = fun _ => Ideal.div (Cert.Spec.zero + ∑ i : Fin 8192, out4 W (ValueIdx.ix2 i (0 : Fin 1)))
          (max (Cert.Spec.zero + ∑ i : Fin 8192, out5 W (ValueIdx.ix2 i (0 : Fin 1))) Cert.Spec.one) := by
  have e : (StableHlo.after (List.flatten [hostOps1 (F := Ideal)]) W (Proc.devRef .tc main_v14) : (⟨S_, .f32⟩ : BufTy).Contents (Elt Ideal))
      = Host.divf (F := Ideal)
          (Host.reduceAdd (F := Ideal) (out4 W) (constant (F := Ideal) S_ .f32 0x00000000#32) reducesTo_S8192x1_S_d0_1 h_S_)
          (maximumf (F := Ideal)
            (Host.reduceAdd (F := Ideal) (out5 W) (constant (F := Ideal) S_ .f32 0x00000000#32) reducesTo_S8192x1_S_d0_1 h_S_)
            (constant (F := Ideal) S_ .f32 0x3F800000#32)) := by
    show StableHlo.after (hostOps1 (F := Ideal)) W (Proc.devRef .tc main_v14) = _
    after_results
  rw [e]
  funext j
  show Ideal.div
      (Host.reduceAdd (F := Ideal) (out4 W) (constant (F := Ideal) S_ .f32 0x00000000#32) reducesTo_S8192x1_S_d0_1 h_S_ j)
      (max (Host.reduceAdd (F := Ideal) (out5 W) (constant (F := Ideal) S_ .f32 0x00000000#32) reducesTo_S8192x1_S_d0_1 h_S_ j)
        (Ideal.ofBits .f32 0x3F800000#32)) = _
  rw [hostSum_col, hostSum_col]
  rfl

end Cert.KernelIdeal.HostMath

end
-- ==== Proof.KI.HostPure.lean ====
/-
  The mean hinge term from the two columns the region leaves.

  If the first column holds each row's hinge term and the second holds 1 on the rows that count and 0 elsewhere, then
  the sum of the first over the larger of the sum of the second and 1 is the specification's result: a sum of
  indicators is the number of indices where the indicator is 1, and the float 0 is the extended real 0.
-/
import proofs.«142534_j8615704396051_1_alg».proof.Proof.Spec
import Idealize.ShloMosaic.PureOps.Ideal.Laws

noncomputable section

namespace Cert.KernelIdeal.HostMath

open Idealize.ShloMosaic

/-- The sum, from the float 0, of the indicators of the rows that count is the number of such rows. -/
theorem sum_indicator_eq_cnt (lab : Fin 8192 → BitVec 32) [DecidablePred (Cert.Spec.valid lab)] :
    Cert.Spec.zero + ∑ i : Fin 8192, (if Cert.Spec.valid lab i then (1 : EReal) else 0)
      = (((Cert.Spec.cnt lab : ℕ) : ℝ) : EReal) := by
  have hc : (Finset.univ.filter fun i : Fin 8192 => Cert.Spec.valid lab i).card = Cert.Spec.cnt lab := by
    unfold Cert.Spec.cnt
    congr
  rw [Finset.sum_boole, hc]
  unfold Cert.Spec.zero
  rw [Ideal.ofBits_zero_f32, zero_add]
  rfl

/-- The two column sums, combined as the host does, give the specification's result. -/
theorem pure_result (x : Fin 8192 → Fin 128 → EReal) (lab : Fin 8192 → BitVec 32) [DecidablePred (Cert.Spec.valid lab)]
    (o4 o5 : Fin 8192 → EReal) (h4 : ∀ i, o4 i = Cert.Spec.row x lab i)
    (h5 : ∀ i, o5 i = if Cert.Spec.valid lab i then (1 : EReal) else 0) :
    Ideal.div (Cert.Spec.zero + ∑ i, o4 i) (max (Cert.Spec.zero + ∑ i, o5 i) Cert.Spec.one) = Cert.Spec.result x lab := by
  have e4 : ∑ i, o4 i = ∑ i, Cert.Spec.row x lab i := Finset.sum_congr rfl fun i _ => h4 i
  have e5 : Cert.Spec.zero + ∑ i, o5 i = (((Cert.Spec.cnt lab : ℕ) : ℝ) : EReal) := by
    rw [Finset.sum_congr rfl fun i _ => h5 i]
    exact sum_indicator_eq_cnt lab
  unfold Cert.Spec.result Cert.Spec.loss
  rw [e4, e5]

end Cert.KernelIdeal.HostMath

end
-- ==== Proof.KI.Value.lean ====
import proofs.«142534_j8615704396051_1_alg».proof.Proof.KI.Launch
import proofs.«142534_j8615704396051_1_alg».proof.Proof.KI.Pieces
import proofs.«142534_j8615704396051_1_alg».proof.Proof.KI.AccumRows
import proofs.«142534_j8615704396051_1_alg».proof.Proof.KI.Blocks
import proofs.«142534_j8615704396051_1_alg».proof.Proof.KI.Final
import proofs.«142534_j8615704396051_1_alg».proof.Proof.KI.HostTail
import proofs.«142534_j8615704396051_1_alg».proof.Proof.KI.HostPure

set_option maxRecDepth 16384

noncomputable section

namespace Cert.KernelIdeal.Hand

open Cert.KernelIdeal Cert.KernelIdeal.Gen Cert.KernelIdeal.TileMath Cert.KernelIdeal.HostMath
open Idealize.ShloMosaic Idealize.ShloMosaic.TcCoe Idealize.SL.Sem
open Classical

variable (m : (ℓ : Loc nD τ sig) → Buf (Elt Ideal) ℓ) (ρ : Dev nD → PrngReg)

/-! ## The four running rows after each grid point, and their recurrences

At the extended reals. After the point `t` (row tile `t / 16`, column tile `t % 16`) the rows hold, per row of the tile:
the largest masked distance to a positive seen so far, the smallest to a negative, and the two flags "a positive was
seen", "a negative was seen". A first column tile starts them from the clearing stores (−1, 3, 0, 0); every other one
from what the point before left. -/
def S0 (c : Dev nD) (t : Fin cfg0.N) : Vec Ideal S1024x1 .f32 := (outsAt0 (F := Ideal) m c t.val t.isLt).2.2.1
def S1 (c : Dev nD) (t : Fin cfg0.N) : Vec Ideal S1024x1 .f32 := (outsAt0 (F := Ideal) m c t.val t.isLt).2.2.2.1
def S2 (c : Dev nD) (t : Fin cfg0.N) : Vec Ideal S1024x1 .f32 := (outsAt0 (F := Ideal) m c t.val t.isLt).2.2.2.2.1
def S3 (c : Dev nD) (t : Fin cfg0.N) : Vec Ideal S1024x1 .f32 := (outsAt0 (F := Ideal) m c t.val t.isLt).2.2.2.2.2

/-- The grid point before `t`. -/
abbrev prevPt (t : Fin cfg0.N) : Fin cfg0.N := ⟨t.val - 1, Nat.lt_of_le_of_lt (Nat.sub_le _ _) t.isLt⟩

set_option maxHeartbeats 4000000 in
theorem rA0 (c : Dev nD) (t : Fin cfg0.N) (h : t.val % 16 = 0) : S0 m c t = k0_pay11 (F := Ideal) (k0_pay9 (F := Ideal) (grid0.coords t) (iblk m c 0 t) (iblk m c 1 t) (iblk m c 2 t) (iblk m c 3 t)) (k0_pay1 (F := Ideal)) :=
  have h1 : ¬ t.val % 16 = 15 := by omega
  (congrArg (fun x => x.2.2.1) (outsAt0_A (F := Ideal) m c t h h1)).trans
    (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (fun h' => h1 ((hcond0_1 t).mp h')) (iblk m c 0 t) (iblk m c 1 t) (iblk m c 2 t) (iblk m c 3 t))
set_option maxHeartbeats 4000000 in
theorem rB0 (c : Dev nD) (t : Fin cfg0.N) (h : t.val % 16 ≠ 0) : S0 m c t = k0_pay11 (F := Ideal) (k0_pay9 (F := Ideal) (grid0.coords t) (iblk m c 0 t) (iblk m c 1 t) (iblk m c 2 t) (iblk m c 3 t)) (S0 m c (prevPt t)) := by
  by_cases h1 : t.val % 16 = 15
  · exact (congrArg (fun x => x.2.2.1) (outsAt0_C (F := Ideal) m c t h h1)).trans
      (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  · exact (congrArg (fun x => x.2.2.1) (outsAt0_B (F := Ideal) m c t h h1)).trans
      (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (fun h' => h1 ((hcond0_1 t).mp h')) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

set_option maxHeartbeats 4000000 in
theorem rA1 (c : Dev nD) (t : Fin cfg0.N) (h : t.val % 16 = 0) : S1 m c t = k0_pay12 (F := Ideal) (k0_pay10 (F := Ideal) (iblk m c 0 t) (iblk m c 1 t) (iblk m c 2 t) (iblk m c 3 t)) (k0_pay2 (F := Ideal)) :=
  have h1 : ¬ t.val % 16 = 15 := by omega
  (congrArg (fun x => x.2.2.2.1) (outsAt0_A (F := Ideal) m c t h h1)).trans
    (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (fun h' => h1 ((hcond0_1 t).mp h')) (iblk m c 0 t) (iblk m c 1 t) (iblk m c 2 t) (iblk m c 3 t))
set_option maxHeartbeats 4000000 in
theorem rB1 (c : Dev nD) (t : Fin cfg0.N) (h : t.val % 16 ≠ 0) : S1 m c t = k0_pay12 (F := Ideal) (k0_pay10 (F := Ideal) (iblk m c 0 t) (iblk m c 1 t) (iblk m c 2 t) (iblk m c 3 t)) (S1 m c (prevPt t)) := by
  by_cases h1 : t.val % 16 = 15
  · exact (congrArg (fun x => x.2.2.2.1) (outsAt0_C (F := Ideal) m c t h h1)).trans
      (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  · exact (congrArg (fun x => x.2.2.2.1) (outsAt0_B (F := Ideal) m c t h h1)).trans
      (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (fun h' => h1 ((hcond0_1 t).mp h')) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

set_option maxHeartbeats 4000000 in
theorem rA2 (c : Dev nD) (t : Fin cfg0.N) (h : t.val % 16 = 0) : S2 m c t = k0_pay13 (F := Ideal) (k0_pay7 (F := Ideal) (grid0.coords t) (iblk m c 2 t) (iblk m c 3 t)) (k0_pay3 (F := Ideal)) :=
  have h1 : ¬ t.val % 16 = 15 := by omega
  (congrArg (fun x => x.2.2.2.2.1) (outsAt0_A (F := Ideal) m c t h h1)).trans
    (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (fun h' => h1 ((hcond0_1 t).mp h')) (iblk m c 0 t) (iblk m c 1 t) (iblk m c 2 t) (iblk m c 3 t))
set_option maxHeartbeats 4000000 in
theorem rB2 (c : Dev nD) (t : Fin cfg0.N) (h : t.val % 16 ≠ 0) : S2 m c t = k0_pay13 (F := Ideal) (k0_pay7 (F := Ideal) (grid0.coords t) (iblk m c 2 t) (iblk m c 3 t)) (S2 m c (prevPt t)) := by
  by_cases h1 : t.val % 16 = 15
  · exact (congrArg (fun x => x.2.2.2.2.1) (outsAt0_C (F := Ideal) m c t h h1)).trans
      (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  · exact (congrArg (fun x => x.2.2.2.2.1) (outsAt0_B (F := Ideal) m c t h h1)).trans
      (sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (fun h' => h1 ((hcond0_1 t).mp h')) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

set_option maxHeartbeats 4000000 in
theorem rA3 (c : Dev nD) (t : Fin cfg0.N) (h : t.val % 16 = 0) : S3 m c t = k0_pay14 (F := Ideal) (k0_pay8 (F := Ideal) (iblk m c 2 t) (iblk m c 3 t)) (k0_pay4 (F := Ideal)) :=
  have h1 : ¬ t.val % 16 = 15 := by omega
  (congrArg (fun x => x.2.2.2.2.2) (outsAt0_A (F := Ideal) m c t h h1)).trans
    (sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (fun h' => h1 ((hcond0_1 t).mp h')) (iblk m c 0 t) (iblk m c 1 t) (iblk m c 2 t) (iblk m c 3 t))
set_option maxHeartbeats 4000000 in
theorem rB3 (c : Dev nD) (t : Fin cfg0.N) (h : t.val % 16 ≠ 0) : S3 m c t = k0_pay14 (F := Ideal) (k0_pay8 (F := Ideal) (iblk m c 2 t) (iblk m c 3 t)) (S3 m c (prevPt t)) := by
  by_cases h1 : t.val % 16 = 15
  · exact (congrArg (fun x => x.2.2.2.2.2) (outsAt0_C (F := Ideal) m c t h h1)).trans
      (sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
  · exact (congrArg (fun x => x.2.2.2.2.2) (outsAt0_B (F := Ideal) m c t h h1)).trans
      (sout0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (fun h' => h1 ((hcond0_1 t).mp h')) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

set_option maxHeartbeats 4000000 in
/-- At a last column tile the two result blocks are the body's final formulas of the four rows as that point leaves them. -/
theorem out4_pt (c : Dev nD) (t : Fin cfg0.N) (h1 : t.val % 16 = 15) :
    (outsAt0 (F := Ideal) m c t.val t.isLt).1 = k0_pay16 (F := Ideal) (S2 m c t) (S3 m c t) (S0 m c t) (S1 m c t) := by
  have h0 : ¬ t.val % 16 = 0 := by omega
  rw [rB0 m c t h0, rB1 m c t h0, rB2 m c t h0, rB3 m c t h0]
  exact (congrArg (fun x => x.1) (outsAt0_C (F := Ideal) m c t h0 h1)).trans
    (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h0 ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
set_option maxHeartbeats 4000000 in
theorem out5_pt (c : Dev nD) (t : Fin cfg0.N) (h1 : t.val % 16 = 15) :
    (outsAt0 (F := Ideal) m c t.val t.isLt).2.1 = k0_pay17 (F := Ideal) (S2 m c t) (S3 m c t) := by
  have h0 : ¬ t.val % 16 = 0 := by omega
  rw [rB2 m c t h0, rB3 m c t h0]
  exact (congrArg (fun x => x.2.1) (outsAt0_C (F := Ideal) m c t h0 h1)).trans
    (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h0 ((hcond0_0 t).mp h')) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

/-! ## The rows at a last column tile, the two result arrays, the result -/

/-- At the last column tile of a row tile the body's two final formulas of the four rows are, row by row, the
    specification's hinge term and the 0/1 flag "the row counts": the running maximum over the sixteen column tiles is
    the maximum over all 8192 columns (the clearing value −1 is the row's own diagonal entry), likewise the minimum
    (3 is the diagonal entry), and a flag is positive exactly when some column set it. -/
theorem rows (c : Dev nD) (t : Fin cfg0.N) (h1 : t.val % 16 = 15) (p : Fin 1024) :
    k0_pay16 (F := Ideal) (S2 m c t) (S3 m c t) (S0 m c t) (S1 m c t) (ValueIdx.ix2 p (0 : Fin 1))
        = Cert.Spec.row (X m c) (Lab m c) ⟨(t.val / 16) * 1024 + p.val, rowTile_lt t p⟩
      ∧ k0_pay17 (F := Ideal) (S2 m c t) (S3 m c t) (ValueIdx.ix2 p (0 : Fin 1))
        = if Cert.Spec.valid (Lab m c) ⟨(t.val / 16) * 1024 + p.val, rowTile_lt t p⟩ then (1 : EReal) else 0 :=
  rows_final (X m c) (Lab m c) (iblk m c 0) (iblk m c 1) (iblk m c 2) (iblk m c 3) (S0 m c) (S1 m c) (S2 m c) (S3 m c)
    (blk0 m c) (blk1 m c) (blk2 m c) (blk3 m c) (rA0 m c) (rB0 m c) (rA1 m c) (rB1 m c) (rA2 m c) (rB2 m c) (rA3 m c) (rB3 m c) t h1 p

/-- The first result array after the run: the hinge term of every row. -/
theorem final_loss (c : Dev nD) (i : Fin 8192) :
    ((dats (F := Ideal) m 0 c).arrAt 4 cfg0.N : S8192x1.Idx → EReal) (ValueIdx.ix2 i (0 : Fin 1)) = Cert.Spec.row (X m c) (Lab m c) i :=
  final4 m c (fun t h1 p => by rw [out4_pt m c t h1]; exact (rows m c t h1 p).1) i

/-- The second: 1 for a row that counts, 0 for one that does not. -/
theorem final_valid (c : Dev nD) (i : Fin 8192) :
    ((dats (F := Ideal) m 0 c).arrAt 5 cfg0.N : S8192x1.Idx → EReal) (ValueIdx.ix2 i (0 : Fin 1)) = if Cert.Spec.valid (Lab m c) i then (1 : EReal) else 0 :=
  final5 m c (fun t h1 p => by rw [out5_pt m c t h1]; exact (rows m c t h1 p).2) i

/-! ## From the two result arrays to the program's result -/

/-- Once the two result arrays hold, row by row, the hinge term and the 0/1 flag "the row counts", the host lines after
    the region (two sums, the clamp at 1, the quotient) leave the specification's value. -/
theorem result_of (c : Dev nD)
    (h4 : ∀ i : Fin 8192, ((dats (F := Ideal) m 0 c).arrAt 4 cfg0.N : S8192x1.Idx → EReal) (ValueIdx.ix2 i (0 : Fin 1)) = Cert.Spec.row (X m c) (Lab m c) i)
    (h5 : ∀ i : Fin 8192, ((dats (F := Ideal) m 0 c).arrAt 5 cfg0.N : S8192x1.Idx → EReal) (ValueIdx.ix2 i (0 : Fin 1)) = if Cert.Spec.valid (Lab m c) i then (1 : EReal) else 0) :
    Vend (F := Ideal) m c main_v14 = fun _ => Cert.Spec.result (X m c) (Lab m c) := by
  show StableHlo.after (List.flatten [hostOps1 (F := Ideal)]) (Wend m c) (Proc.devRef .tc main_v14) = _
  rw [tail_result]
  funext _
  refine pure_result (X m c) (Lab m c) (fun i => out4 (Wend m c) (ValueIdx.ix2 i (0 : Fin 1))) (fun i => out5 (Wend m c) (ValueIdx.ix2 i (0 : Fin 1))) (fun i => ?_) (fun i => ?_)
  · show (WendR m c main_v10_0 : S8192x1.Idx → EReal) (ValueIdx.ix2 i (0 : Fin 1)) = _
    rw [Wend_v10_0]; exact h4 i
  · show (WendR m c main_v10_1 : S8192x1.Idx → EReal) (ValueIdx.ix2 i (0 : Fin 1)) = _
    rw [Wend_v10_1]; exact h5 i

/-- The idealised kernel's result is the specification's value of the matrix and the labels. -/
theorem result_eq (c : Dev nD) : Vend (F := Ideal) m c main_v14 = fun _ => Cert.Spec.result (X m c) (Lab m c) :=
  result_of m c (final_loss m c) (final_valid m c)

end Cert.KernelIdeal.Hand

end
-- ==== Proof.LibBitReduce.lean ====
/-
  Folds of one-bit words, for any shapes.

  A bitwise-or reduction of one-bit words over ONE axis started from 0, read at a reduced index, is 1 exactly when
  some word along that axis is 1. A sum, started from 0, of one-bit words widened to 32 bits is the number of ones
  among them, as a 32-bit word. Both are folds of a commutative associative operation over a finite range, and both
  follow by inserting one index at a time.
-/
import Idealize.ShloMosaic.PureOps.Reduce
import Idealize.ShloMosaic.Lib.ValueIdx

noncomputable section

open scoped BigOperators

namespace Cert.Lib.BitReduce

open Idealize.ShloMosaic

/-- A one-bit word is 0 or 1. -/
theorem bit_cases (b : BitVec 1) : b = 0#1 ∨ b = 1#1 := by
  by_cases h : b = 1#1
  · exact Or.inr h
  · exact Or.inl (ValueIdx.eq_zero_of_ne_one h)

/-- The or of two one-bit words is 1 exactly when one of them is. -/
theorem ori_eq_one_iff (x y : BitVec 1) : IntOp.ori x y = 1#1 ↔ x = 1#1 ∨ y = 1#1 := by
  rcases bit_cases x with hx | hx <;> rcases bit_cases y with hy | hy <;> subst hx <;> subst hy <;> decide

/-- The and of two one-bit words is 1 exactly when both are. -/
theorem andi_eq_one_iff (x y : BitVec 1) : IntOp.andi x y = 1#1 ↔ x = 1#1 ∧ y = 1#1 := by
  rcases bit_cases x with hx | hx <;> rcases bit_cases y with hy | hy <;> subst hx <;> subst hy <;> decide

/-- The complement of a one-bit word is 1 exactly when the word is not. -/
theorem noti_eq_one_iff (b : BitVec 1) : ~~~b = 1#1 ↔ ¬ b = 1#1 := by
  rcases bit_cases b with h | h <;> subst h <;> decide

/-- The equality comparison of two words is 1 exactly when they are equal. -/
theorem cmpi_eq_one_iff {w : Nat} (x y : BitVec w) : IntOp.cmpi .eq x y = 1#1 ↔ x = y := by
  unfold IntOp.cmpi
  by_cases h : x = y
  · subst h; simp
  · have hb : (x == y) = false := beq_eq_false_iff_ne.2 h
    show BitVec.ofBool (x == y) = 1#1 ↔ x = y
    rw [hb]
    exact ⟨fun e => absurd e (by decide), fun e => absurd e h⟩

/-- Two numbers below 2^32 with the same 32-bit word are equal. -/
theorem ofNat32_inj {a b : Nat} (ha : a < 2 ^ 32) (hb : b < 2 ^ 32) (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

/-- A fold of or from 0 over a finite set of one-bit words is 1 exactly when some word of the set is 1. -/
theorem fold_ori_eq_one_iff {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, ori_eq_one_iff, ih]
    constructor
    · rintro (h | ⟨k, hk, hf⟩)
      · exact ⟨a, Finset.mem_insert_self a s, h⟩
      · exact ⟨k, Finset.mem_insert_of_mem hk, hf⟩
    · rintro ⟨k, hk, hf⟩
      rcases Finset.mem_insert.1 hk with rfl | hk
      · exact Or.inl hf
      · exact Or.inr ⟨k, hk, hf⟩

/-- The host's one-operand reduce with an or body over one axis of one-bit words, its initial value the constant 0,
    at reduced index j, is 1 exactly when the operand is 1 at j with some coordinate k put back. -/
theorem hostOrReduce_single {s t u : Shape} {a : Fin s.rank} (x : IVec s 1) (h' : s.ReducesTo [a] t)
    (h : s.Reduces [a] t) (hu : 0 < u.numel) (j : t.Idx) :
    Host.reduce IntOp.ori x (constantI u 1 0#1) h' hu j = 1#1 ↔ ∃ k : Fin (s.size a), x (h.lift j k) = 1#1 := by
  rw [Host.reduce_eq_fold_single IntOp.ori x _ h' h hu]
  show (Finset.univ : Finset (Fin (s.size a))).fold IntOp.ori 0#1 (fun k => x (h.lift j k)) = 1#1 ↔ _
  rw [fold_ori_eq_one_iff]
  simp only [Finset.mem_univ, true_and]

/-- A one-bit word widened to 32 bits is 1 or 0 with it. -/
theorem setWidth_one : (1#1 : BitVec 1).setWidth 32 = 1#32 := by decide
theorem setWidth_zero : (0#1 : BitVec 1).setWidth 32 = 0#32 := by decide

/-- A sum from 0 of widened one-bit words over a finite set is the number of ones in the set, as a word. -/
theorem fold_addi_setWidth_eq_card {ι : Type} [DecidableEq ι] (s : Finset ι) (b : ι → BitVec 1) :
    s.fold IntOp.addi 0#32 (fun k => (b k).setWidth 32) = BitVec.ofNat 32 (s.filter fun k => b k = 1#1).card := by
  induction s using Finset.induction_on with
  | empty => simp
  | insert a s ha ih =>
    rw [Finset.fold_insert ha, ih, Finset.filter_insert]
    rcases bit_cases (b a) with h0 | h1
    · rw [if_neg (by rw [h0]; decide), h0, setWidth_zero]
      show 0#32 + _ = _
      rw [BitVec.zero_add]
    · rw [if_pos h1, h1, setWidth_one,
        Finset.card_insert_of_notMem (fun hm => ha (Finset.mem_filter.1 hm).1)]
      show 1#32 + _ = _
      rw [Nat.add_comm, BitVec.ofNat_add]

/-- The host's one-operand reduce with an addition body over one axis of widened one-bit words, its initial value the
    constant 0, at reduced index j, is the number of coordinates k at which the bit at j with k put back is 1. -/
theorem hostCountReduce_single {s t u : Shape} {a : Fin s.rank} (b : IVec s 1) (h' : s.ReducesTo [a] t)
    (h : s.Reduces [a] t) (hu : 0 < u.numel) (j : t.Idx) :
    Host.reduce IntOp.addi (fun i => (b i).setWidth 32) (constantI u 32 0#32) h' hu j
      = BitVec.ofNat 32 (Finset.univ.filter fun k : Fin (s.size a) => b (h.lift j k) = 1#1).card := by
  rw [Host.reduce_eq_fold_single IntOp.addi _ _ h' h hu]
  exact fold_addi_setWidth_eq_card Finset.univ (fun k => b (h.lift j k))

end Cert.Lib.BitReduce

end
-- ==== Proof.RefSideB.lean ====
/-
  The reference, rows 12 to 24, read at an index: the two masks.

  The mask of positives at (i, j) is the bit of "the labels of i and j agree and i is not j", the mask of negatives
  the bit of "the labels differ". The row and column counters are below 2^32, so their words agree exactly when the
  indices do.
-/
import proofs.«142534_j8615704396051_1_alg».proof.Proof.Gen.ReferenceIdeal.Read
import proofs.«142534_j8615704396051_1_alg».proof.Proof.Spec
import proofs.«142534_j8615704396051_1_alg».proof.Proof.LibBitReduce
import proofs.«142534_j8615704396051_1_alg».proof.Proof.RefSideA
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

open Cert.Lib.BitReduce

variable (x1 : (⟨S8192, .i32⟩ : BufTy).Contents (Elt Ideal))

/-- The label comparison at (i, j) is 1 exactly when the labels of i and j agree. -/
theorem v16_apply (i j : Fin 8192) :
    val_main_v16 (F := Ideal) x1 (ValueIdx.ix2 i j) = 1#1 ↔ Lab x1 i = Lab x1 j := by
  rw [val_main_v16_apply, val_main_v14_apply, val_main_v15_apply, val_main_v12_apply, val_main_v13_apply]
  have hc : idx_main_v12 (idx_main_v14 (ValueIdx.ix2 i j)) = ValueIdx.ix1 j := by
    funext a; match a with | ⟨0, _⟩ => rfl
  have hr : idx_main_v13 (idx_main_v15 (ValueIdx.ix2 i j)) = ValueIdx.ix1 i := by
    funext a; match a with | ⟨0, _⟩ => rfl
  rw [hc, hr, cmpi_eq_one_iff]
  exact eq_comm

/-- The diagonal mask at (i, j) is 1 exactly when i is j. -/
theorem v21_apply (i j : Fin 8192) :
    val_main_v21 (F := Ideal) (ValueIdx.ix2 i j) = 1#1 ↔ i = j := by
  rw [val_main_v21_apply, val_main_v20_apply, val_main_v17_apply, val_main_v18_apply, val_main_v19_apply,
    val_main_c_apply, cmpi_eq_one_iff]
  show IntOp.addi (BitVec.ofNat 32 i.val) 0#32 = BitVec.ofNat 32 j.val ↔ i = j
  unfold IntOp.addi
  rw [BitVec.add_zero]
  constructor
  · intro h
    have hi : i.val < 2 ^ 32 := lt_trans i.isLt (by norm_num)
    have hj : j.val < 2 ^ 32 := lt_trans j.isLt (by norm_num)
    exact Fin.ext (ofNat32_inj hi hj h)
  · rintro rfl; rfl

/-- The mask of positives. -/
theorem v23_apply (i j : Fin 8192) :
    val_main_v23 (F := Ideal) x1 (ValueIdx.ix2 i j) = 1#1 ↔ Cert.Spec.pos (Lab x1) i j := by
  rw [val_main_v23_apply, andi_eq_one_iff, val_main_v22_apply, noti_eq_one_iff, v16_apply, v21_apply]
  exact Iff.rfl

/-- The mask of negatives. -/
theorem v24_apply (i j : Fin 8192) :
    val_main_v24 (F := Ideal) x1 (ValueIdx.ix2 i j) = 1#1 ↔ Cert.Spec.neg (Lab x1) i j := by
  rw [val_main_v24_apply, noti_eq_one_iff, v16_apply]
  exact Iff.rfl

end Cert.ReferenceIdeal.RefSide

end
-- ==== Proof.RefSideC.lean ====
/-
  The reference, rows 25 to 31, read at an index: the hardest positive, the hardest negative, and which rows count.

  Each of the four reductions runs over the second axis of an 8192 by 8192 array. At row i the index with column j
  put back is (i, j), so the maximum from -inf is the supremum over j of the masked distances, the minimum from +inf
  their infimum, and the or from 0 of a mask is 1 exactly when the mask is 1 at some (i, j).
-/
import proofs.«142534_j8615704396051_1_alg».proof.Proof.Gen.ReferenceIdeal.Read
import proofs.«142534_j8615704396051_1_alg».proof.Proof.Spec
import proofs.«142534_j8615704396051_1_alg».proof.Proof.LibBitReduce
import proofs.«142534_j8615704396051_1_alg».proof.Proof.LibMaxReduce
import proofs.«142534_j8615704396051_1_alg».proof.Proof.LibMinReduce
import proofs.«142534_j8615704396051_1_alg».proof.Proof.RefSideA
import proofs.«142534_j8615704396051_1_alg».proof.Proof.RefSideB
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

open Cert.Lib.BitReduce
open Classical

/-- The second axis of the square array is the one dropped. -/
theorem red_d1 : S8192x8192.Reduces [1] S8192 := by decide

/-- Row index i with column k put back is (i, k). -/
theorem lift_row (i : Fin 8192) (k : Fin (S8192x8192.size 1)) :
    red_d1.lift (ValueIdx.ix1 i) k = ValueIdx.ix2 i (⟨k.val, k.isLt⟩ : Fin 8192) := by
  funext c; apply Fin.ext
  match c with
  | ⟨0, _⟩ => rfl
  | ⟨1, _⟩ => rfl

/-- A maximum over the columns from -inf, at row i, is the supremum of the row. -/
theorem hostMax_row (y : FVec Ideal S8192x8192 .f32) (i : Fin 8192) :
    Host.reduce FloatOps.maximumf y (constant (F := Ideal) S_ .f32 0xFF800000#32) reducesTo_S8192x8192_S8192_d1 h_S_
      (ValueIdx.ix1 i) = ⨆ j : Fin 8192, y (ValueIdx.ix2 i j) := by
  rw [Cert.Lib.MaxReduce.hostMaxReduce_single y reducesTo_S8192x8192_S8192_d1 red_d1 h_S_]
  show (⨆ k : Fin 8192, y (red_d1.lift (ValueIdx.ix1 i) k)) = _
  exact iSup_congr fun k => congrArg y (lift_row i k)

/-- A minimum over the columns from +inf, at row i, is the infimum of the row. -/
theorem hostMin_row (y : FVec Ideal S8192x8192 .f32) (i : Fin 8192) :
    Host.reduce FloatOps.minimumf y (constant (F := Ideal) S_ .f32 0x7F800000#32) reducesTo_S8192x8192_S8192_d1 h_S_
      (ValueIdx.ix1 i) = ⨅ j : Fin 8192, y (ValueIdx.ix2 i j) := by
  rw [Cert.Lib.MinReduce.hostMinReduce_single y reducesTo_S8192x8192_S8192_d1 red_d1 h_S_]
  show (⨅ k : Fin 8192, y (red_d1.lift (ValueIdx.ix1 i) k)) = _
  exact iInf_congr fun k => congrArg y (lift_row i k)

/-- An or over the columns from 0, at row i, is 1 exactly when the row has a 1. -/
theorem hostOr_row (b : IVec S8192x8192 1) (i : Fin 8192) :
    Host.reduce IntOp.ori b (constantI S_ 1 0#1) reducesTo_S8192x8192_S8192_d1 h_S_ (ValueIdx.ix1 i) = 1#1
      ↔ ∃ j : Fin 8192, b (ValueIdx.ix2 i j) = 1#1 := by
  rw [hostOrReduce_single b reducesTo_S8192x8192_S8192_d1 red_d1 h_S_]
  constructor
  · rintro ⟨k, hk⟩
    exact ⟨⟨k.val, k.isLt⟩, by rw [← lift_row i k]; exact hk⟩
  · rintro ⟨j, hj⟩
    exact ⟨(⟨j.val, j.isLt⟩ : Fin (S8192x8192.size 1)), by rw [lift_row]; exact hj⟩

variable (x0 : (⟨S8192x128, .f32⟩ : BufTy).Contents (Elt Ideal)) (x1 : (⟨S8192, .i32⟩ : BufTy).Contents (Elt Ideal))

/-- The distances with -1 standing in off the positives. -/
theorem v25_apply (i j : Fin 8192) :
    val_main_v25 (F := Ideal) x0 x1 (ValueIdx.ix2 i j)
      = if Cert.Spec.pos (Lab x1) i j then Cert.Spec.dist (X x0) i j else Cert.Spec.negOne := by
  rw [val_main_v25_apply, v11_apply, val_main_call0_v1_apply]
  by_cases hp : Cert.Spec.pos (Lab x1) i j
  · rw [if_pos hp, (v23_apply x1 i j).2 hp]
    exact ValueIdx.select_one _ _
  · rw [if_neg hp, ValueIdx.eq_zero_of_ne_one (fun h => hp ((v23_apply x1 i j).1 h))]
    exact ValueIdx.select_zero _ _

/-- The distances with 3 standing in off the negatives. -/
theorem v27_apply (i j : Fin 8192) :
    val_main_v27 (F := Ideal) x0 x1 (ValueIdx.ix2 i j)
      = if Cert.Spec.neg (Lab x1) i j then Cert.Spec.dist (X x0) i j else Cert.Spec.three := by
  rw [val_main_v27_apply, v11_apply, val_main_call1_v1_apply]
  by_cases hp : Cert.Spec.neg (Lab x1) i j
  · rw [if_pos hp, (v24_apply x1 i j).2 hp]
    exact ValueIdx.select_one _ _
  · rw [if_neg hp, ValueIdx.eq_zero_of_ne_one (fun h => hp ((v24_apply x1 i j).1 h))]
    exact ValueIdx.select_zero _ _

/-- The hardest positive of row i. -/
theorem v26_apply (i : Fin 8192) :
    val_main_v26 (F := Ideal) x0 x1 (ValueIdx.ix1 i) = Cert.Spec.hp (X x0) (Lab x1) i := by
  unfold val_main_v26 Cert.Spec.hp
  exact (hostMax_row (val_main_v25 (F := Ideal) x0 x1) i).trans (iSup_congr fun j => v25_apply x0 x1 i j)

/-- The hardest negative of row i. -/
theorem v28_apply (i : Fin 8192) :
    val_main_v28 (F := Ideal) x0 x1 (ValueIdx.ix1 i) = Cert.Spec.hn (X x0) (Lab x1) i := by
  unfold val_main_v28 Cert.Spec.hn
  exact (hostMin_row (val_main_v27 (F := Ideal) x0 x1) i).trans (iInf_congr fun j => v27_apply x0 x1 i j)

/-- Row i has a positive. -/
theorem v29_apply (i : Fin 8192) :
    val_main_v29 (F := Ideal) x1 (ValueIdx.ix1 i) = 1#1 ↔ ∃ j, Cert.Spec.pos (Lab x1) i j := by
  unfold val_main_v29
  exact (hostOr_row (val_main_v23 (F := Ideal) x1) i).trans (exists_congr fun j => v23_apply x1 i j)

/-- Row i has a negative. -/
theorem v30_apply (i : Fin 8192) :
    val_main_v30 (F := Ideal) x1 (ValueIdx.ix1 i) = 1#1 ↔ ∃ j, Cert.Spec.neg (Lab x1) i j := by
  unfold val_main_v30
  exact (hostOr_row (val_main_v24 (F := Ideal) x1) i).trans (exists_congr fun j => v24_apply x1 i j)

/-- Row i counts. -/
theorem v31_apply (i : Fin 8192) :
    val_main_v31 (F := Ideal) x1 (ValueIdx.ix1 i) = 1#1 ↔ Cert.Spec.valid (Lab x1) i := by
  rw [val_main_v31_apply, andi_eq_one_iff, v29_apply, v30_apply]
  exact Iff.rfl

end Cert.ReferenceIdeal.RefSide

end
-- ==== Proof.RefSideD.lean ====
/-
  The reference, rows 32 to 37, read at an index: the hinge term of each row and their sum.

  The hinge term of row i is max (hp i - hn i + margin, 0) where the row counts and 0 elsewhere; the float sum over
  all 8192 rows, started from 0, is the loss. A sum over the indices of a one-axis array is the sum over the axis.
-/
import proofs.«142534_j8615704396051_1_alg».proof.Proof.Gen.ReferenceIdeal.Read
import proofs.«142534_j8615704396051_1_alg».proof.Proof.Spec
import proofs.«142534_j8615704396051_1_alg».proof.Proof.RefSideC
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

open Classical

/-- A rank-1 index set is its one coordinate range … -/
def idxEquiv1 {n : Nat} : (⟨1, ![n]⟩ : Shape).Idx ≃ Fin n where
  toFun i := i 0
  invFun a := ValueIdx.ix1 a
  left_inv i := (ValueIdx.eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

variable (x0 : (⟨S8192x128, .f32⟩ : BufTy).Contents (Elt Ideal)) (x1 : (⟨S8192, .i32⟩ : BufTy).Contents (Elt Ideal))

/-- The hinge of row i before masking. -/
theorem v35_apply (i : Fin 8192) :
    val_main_v35 (F := Ideal) x0 x1 (ValueIdx.ix1 i)
      = max (Cert.Spec.hp (X x0) (Lab x1) i - Cert.Spec.hn (X x0) (Lab x1) i + Cert.Spec.margin) Cert.Spec.zero := by
  rw [val_main_v35_apply, val_main_v34_apply, val_main_v32_apply, v26_apply, v28_apply, val_main_v33_apply,
    val_main_call2_v0_apply]
  rfl

/-- The hinge term of row i. -/
theorem v36_apply (i : Fin 8192) :
    val_main_v36 (F := Ideal) x0 x1 (ValueIdx.ix1 i) = Cert.Spec.row (X x0) (Lab x1) i := by
  rw [val_main_v36_apply, v35_apply, val_main_call3_v1_apply]
  unfold Cert.Spec.row
  by_cases hv : Cert.Spec.valid (Lab x1) i
  · rw [if_pos hv, (v31_apply x1 i).2 hv]
    exact ValueIdx.select_one _ _
  · rw [if_neg hv, ValueIdx.eq_zero_of_ne_one (fun h => hv ((v31_apply x1 i).1 h))]
    exact ValueIdx.select_zero _ _

/-- The sum of the hinge terms. -/
theorem v37_apply (i0 : S_.Idx) :
    val_main_v37 (F := Ideal) x0 x1 i0 = Cert.Spec.loss (X x0) (Lab x1) := by
  rw [val_main_v37_apply]
  unfold Cert.Spec.loss
  refine congrArg₂ (· + ·) rfl ?_
  exact (sum_idx1 (val_main_v36 (F := Ideal) x0 x1)).trans (Finset.sum_congr rfl fun i _ => v36_apply x0 x1 i)

end Cert.ReferenceIdeal.RefSide

end
-- ==== Proof.LibCountWord.lean ====
/-
  A small count as a 32-bit word, read back signed.

  The integer sum, from 0, of a whole array of one-bit words widened to 32 bits is the number of ones in it.

  A number below 2^31 written as a 32-bit word and read as a signed integer is the number itself; the signed maximum
  of that word and the word 1, read signed, is the larger of the number and 1; and, as extended reals, the larger of
  the number and 1 is the maximum of their images.
-/
import proofs.«142534_j8615704396051_1_alg».proof.Proof.LibBitReduce
import Idealize.ShloMosaic.PureOps.Ideal.Laws
import Idealize.ShloMosaic.PureOps.Reduce

noncomputable section

namespace Cert.Lib.CountWord

open Idealize.ShloMosaic

/-- The host's one-operand reduce with an addition body over EVERY axis of an array of widened one-bit words, its
    initial value the constant 0: the result has one index, every operand index reduces into it, and the sum is the
    number of ones in the whole array, as a word. -/
theorem hostCountReduce_total {s t u : Shape} {axes : List (Fin s.rank)} [Subsingleton t.Idx] (b : IVec s 1)
    (h' : s.ReducesTo axes t) (hu : 0 < u.numel) (j : t.Idx) :
    Host.reduce IntOp.addi (fun i => (b i).setWidth 32) (constantI u 32 0#32) h' hu j
      = BitVec.ofNat 32 (Finset.univ.filter fun i : s.Idx => b i = 1#1).card := by
  rw [Host.reduce_eq_fold IntOp.addi _ _ h' hu j, Finset.filter_true_of_mem (fun i _ => Subsingleton.elim _ _)]
  exact Cert.Lib.BitReduce.fold_addi_setWidth_eq_card Finset.univ b

/-- A number below 2^31, as a 32-bit word read signed, is itself. -/
theorem toInt_ofNat32 {n : Nat} (hn : n < 2 ^ 31) : (BitVec.ofNat 32 n).toInt = (n : ℤ) := by
  have hN : (BitVec.ofNat 32 n).toNat = n := by
    rw [BitVec.toNat_ofNat]
    exact Nat.mod_eq_of_lt (lt_trans hn (by norm_num))
  have h2 : 2 * (BitVec.ofNat 32 n).toNat < 2 ^ 32 := by
    rw [hN]
    have : (2 : Nat) ^ 32 = 2 * 2 ^ 31 := by norm_num
    omega
  rw [BitVec.toInt_eq_toNat_of_lt h2, hN]

/-- The signed maximum of such a word and the word 1, read signed, is the larger of the number and 1. -/
theorem toInt_maxsi_one {n : Nat} (hn : n < 2 ^ 31) :
    (IntOp.maxsi (BitVec.ofNat 32 n) 1#32).toInt = max (n : ℤ) 1 := by
  unfold IntOp.maxsi
  have h1 : (1#32 : BitVec 32).toInt = 1 := BitVec.toInt_one (by decide)
  by_cases h : (1#32 : BitVec 32).slt (BitVec.ofNat 32 n) = true
  · rw [if_pos h, toInt_ofNat32 hn]
    have hlt := BitVec.slt_iff_toInt_lt.1 h
    rw [h1, toInt_ofNat32 hn] at hlt
    exact (max_eq_left (le_of_lt hlt)).symm
  · rw [if_neg h, h1]
    have hle : (n : ℤ) ≤ 1 := by
      by_contra hc
      exact h (BitVec.slt_iff_toInt_lt.2 (by rw [h1, toInt_ofNat32 hn]; exact lt_of_not_ge hc))
    exact (max_eq_right hle).symm

/-- The larger of a natural number and 1, as an extended real, is the maximum of the two as extended reals. -/
theorem coe_max_one (n : ℕ) : (((max (n : ℤ) 1 : ℤ) : ℝ) : EReal) = max (((n : ℝ)) : EReal) 1 := by
  rw [(Int.cast_mono (R := ℝ)).map_max, EReal.coe_strictMono.monotone.map_max, Int.cast_natCast, Int.cast_one,
    EReal.coe_one]

end Cert.Lib.CountWord

end
-- ==== Proof.RefSideE.lean ====
/-
  The reference, rows 38 to 41: the number of rows that count, as a float.

  The mask of rows that count, widened to 32-bit words and summed from 0 over all 8192 rows, is the number of such rows
  as a word; it is at most 8192, so the signed maximum with 1 and the conversion to a float read it exactly, and the
  result is the larger of the count and 1.
-/
import proofs.«142534_j8615704396051_1_alg».proof.Proof.Gen.ReferenceIdeal.Read
import proofs.«142534_j8615704396051_1_alg».proof.Proof.Spec
import proofs.«142534_j8615704396051_1_alg».proof.Proof.LibCountWord
import proofs.«142534_j8615704396051_1_alg».proof.Proof.RefSideC
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

open Cert.Lib.BitReduce Cert.Lib.CountWord
open Classical

variable (x1 : (⟨S8192, .i32⟩ : BufTy).Contents (Elt Ideal))

/-- At most 8192 rows count. -/
theorem cnt_le (lab : Fin 8192 → BitVec 32) : Cert.Spec.cnt lab ≤ 8192 := by
  unfold Cert.Spec.cnt
  exact (Finset.card_filter_le _ _).trans (by simp)

/-- The integer sum of the widened mask is the number of rows that count, as a word: the rows of the 8192-vector are
    its indices, one for one. -/
theorem v39_apply (j : S_.Idx) :
    val_main_v39 (F := Ideal) x1 j = BitVec.ofNat 32 (Cert.Spec.cnt (Lab x1)) := by
  haveI : Subsingleton S_.Idx := ⟨fun a b => funext fun c => c.elim0⟩
  unfold val_main_v39
  rw [show val_main_v38 (F := Ideal) x1 = (fun i => (val_main_v31 (F := Ideal) x1 i).setWidth 32) from rfl,
    show (val_main_c_11 (F := Ideal)) = constantI S_ 32 0#32 from rfl,
    hostCountReduce_total (val_main_v31 (F := Ideal) x1) reducesTo_S8192_S_d0 h_S_ j]
  refine congrArg (BitVec.ofNat 32) ?_
  unfold Cert.Spec.cnt
  refine Finset.card_bij (fun (i : S8192.Idx) _ => (i 0 : Fin 8192)) ?_ ?_ ?_
  · intro (i : S8192.Idx) hi
    have h1 : val_main_v31 (F := Ideal) x1 i = 1#1 := (Finset.mem_filter.1 hi).2
    rw [ValueIdx.eq_ix1 i] at h1
    exact Finset.mem_filter.2 ⟨Finset.mem_univ _, (v31_apply x1 (i 0)).1 h1⟩
  · intro (a : S8192.Idx) _ (b : S8192.Idx) _ hab
    exact (ValueIdx.eq_ix1 a).trans ((congrArg ValueIdx.ix1 hab).trans (ValueIdx.eq_ix1 b).symm)
  · intro k hk
    have h2 : Cert.Spec.valid (Lab x1) k := (Finset.mem_filter.1 hk).2
    exact ⟨ValueIdx.ix1 k, Finset.mem_filter.2 ⟨Finset.mem_univ _, (v31_apply x1 k).2 h2⟩, rfl⟩

/-- The count, clamped below by 1, as a float. -/
theorem v41_apply (j : S_.Idx) :
    val_main_v41 (F := Ideal) x1 j = max (((Cert.Spec.cnt (Lab x1) : ℕ) : ℝ) : EReal) Cert.Spec.one := by
  rw [val_main_v41_apply, val_main_v40_apply, v39_apply, val_main_c_12_apply]
  show (((IntOp.maxsi (BitVec.ofNat 32 (Cert.Spec.cnt (Lab x1))) 1#32).toInt : ℝ) : EReal) = _
  have hlt : Cert.Spec.cnt (Lab x1) < 2 ^ 31 := lt_of_le_of_lt (cnt_le (Lab x1)) (by norm_num)
  rw [toInt_maxsi_one hlt, coe_max_one]
  unfold Cert.Spec.one
  rw [Ideal.ofBits_one_f32]

end Cert.ReferenceIdeal.RefSide

end
-- ==== Proof.RefSide.lean ====
/-
  The reference computes the specification: the sum of the hinge terms divided by the larger of the number of rows that
  count and 1.
-/
import proofs.«142534_j8615704396051_1_alg».proof.Proof.Gen.ReferenceIdeal.Read
import proofs.«142534_j8615704396051_1_alg».proof.Proof.Spec
import proofs.«142534_j8615704396051_1_alg».proof.Proof.RefSideD
import proofs.«142534_j8615704396051_1_alg».proof.Proof.RefSideE
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

/-- The reference's result, at the extended reals, is the specification's, read off the inputs' coordinates. -/
theorem ref_result (x0 : (⟨S8192x128, .f32⟩ : BufTy).Contents (Elt Ideal)) (x1 : (⟨S8192, .i32⟩ : BufTy).Contents (Elt Ideal)) :
    Cert.ReferenceIdeal.Read.val_main_v42 (F := Ideal) x0 x1
      = fun _ => Cert.Spec.result (fun i k => x0 (ValueIdx.ix2 i k)) (fun i => x1 (ValueIdx.ix1 i)) := by
  funext j
  rw [val_main_v42_apply, v37_apply, v41_apply]
  rfl

end Cert.ReferenceIdeal.RefSide

end
-- ==== Proof.lean ====
/-
  Batch-hard triplet loss with cosine distance: the tiled kernel against the plain array program, at the extended reals.

  Both programs normalise the rows of an 8192 × 128 matrix (dividing by the row norm clamped at the float 1e-12), take
  the cosine distance dist i j = 1 − ⟨e i, e j⟩, and for every row i the largest distance to a row of its label other
  than i (−1 standing in where there is none) and the smallest to a row of another label (3 standing in); rows with
  both a positive and a negative contribute max (hp − hn + margin, 0), and the result is their sum over max (their
  number, 1). The array program forms the 8192 × 8192 matrices whole. The kernel walks row tiles of 1024 rows and,
  inside each, column tiles of 512 columns, keeping four running rows (largest positive distance so far, smallest
  negative one, "a positive was seen", "a negative was seen") across the column tiles: cleared at the first, folded
  into the two result blocks at the last; two host sums and a quotient finish. The normalised matrix is handed to the
  kernel twice, as row tiles and as column tiles.

  Why the two agree: a maximum over all columns is the maximum of the column tiles' maxima; starting the running
  maximum from −1 changes nothing because the diagonal entry of every row already is −1 (a row is no positive of
  itself), likewise 3 for the running minimum (a row is no negative of itself); a flag maximum is positive exactly
  when some entry is set; the kernel counts the contributing rows by a float sum of zeros and ones and the array
  program by an integer sum converted afterwards, the same number. No law used needs finiteness: maxima, minima and
  sums are only regrouped.

  The kernel's runs (word level and idealised) are proved from the launch theorem of a one-region program whose
  windows may share an array, with the matrix's points-to split in its two halves for the two windows on it and joined
  again for the host lines after the region (KI/Launch.lean, K/Launch.lean); the body is run once per case of its two
  branches (first / middle / last column tile) and the running rows are carried through the region's invariant
  (KI/Frame.lean). The reference's run and its operations read at an index are the generated Run / Read modules.
-/
import proofs.«142534_j8615704396051_1_alg».proof.Defs
import proofs.«142534_j8615704396051_1_alg».proof.Proof.Gen.Kernel
import proofs.«142534_j8615704396051_1_alg».proof.Proof.Gen.KernelIdeal
import proofs.«142534_j8615704396051_1_alg».proof.Proof.Gen.ReferenceIdeal
import proofs.«142534_j8615704396051_1_alg».proof.Proof.Gen.Pre_finite_inputs
import proofs.«142534_j8615704396051_1_alg».proof.Proof.K.Launch
import proofs.«142534_j8615704396051_1_alg».proof.Proof.KI.Value
import proofs.«142534_j8615704396051_1_alg».proof.Proof.RefSide

noncomputable section

namespace Cert.Proof

open Idealize.ShloMosaic Idealize.ShloMosaic.TcCoe Idealize.SL.Sem

/-- The word-level kernel runs to its end, faults nowhere and leaves its two argument arrays as they were. -/
theorem frame_p : Cert.frame_Kernel := fun m ρ _ => Cert.Kernel.Hand.frame (F := Bits) m ρ

/-- So does the idealised kernel. -/
theorem frame_pi : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the two arguments both programs end with the same extended real: the specification's
    value of the matrix and the labels. -/
theorem algebraic : Cert.algebraic_KernelIdeal_ReferenceIdeal := by
  intro m ρ m' ρ' _ hagree
  refine ⟨fun c => fun _ => Cert.Spec.result (Cert.KernelIdeal.HostMath.X m c) (Cert.KernelIdeal.HostMath.Lab m c), ?_, ?_⟩
  · exact (θ_run Cert.KernelIdeal.defs _ _).mono (fun r h c => ⟨(h c).1.trans (Cert.KernelIdeal.Hand.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefSide.ref_result, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
